-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x128 : Shape := ⟨3, ![64, 2048, 128]⟩
abbrev S131072x512 : Shape := ⟨2, ![131072, 512]⟩
abbrev S512x128 : Shape := ⟨2, ![512, 128]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel
  bcast_S_S131072x512 : S_.BroadcastsInDim S131072x512 (![] : Fin 0 → Fin S131072x512.rank)
  reducesTo_S131072x512_S_d0_1 : S131072x512.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S64x2048x128 .f32) (main_arg1 : FVec F S131072x512 .f32) (main_arg2 : FVec F S512x128 .f32) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S64x2048x128 : Shape := ⟨3, ![64, 2048, 128]⟩
abbrev S131072x512 : Shape := ⟨2, ![131072, 512]⟩
abbrev S512x128 : Shape := ⟨2, ![512, 128]⟩
abbrev S131072x128 : Shape := ⟨2, ![131072, 128]⟩
abbrev S512x512 : Shape := ⟨2, ![512, 512]⟩
abbrev S2048x128 : Shape := ⟨2, ![2048, 128]⟩
abbrev S2048x512 : Shape := ⟨2, ![2048, 512]⟩
abbrev S8x512 : Shape := ⟨2, ![8, 512]⟩
abbrev S512 : Shape := ⟨1, ![512]⟩
abbrev S1x512 : Shape := ⟨2, ![1, 512]⟩
abbrev S128x512 : Shape := ⟨2, ![128, 512]⟩
abbrev S2048 : Shape := ⟨1, ![2048]⟩
abbrev S2048x1 : Shape := ⟨2, ![2048, 1]⟩
abbrev S_ : Shape := ⟨0, ![]⟩

abbrev nBuf : Space → Nat
  | .hbm => 32
  | .vmem => 13
  | .smem => 0
  | _ => 0

abbrev bufTy : (tb : Table) → Fin (tcTables nBuf tb) → BufTy
  | .hbm, ⟨0, _⟩ => ⟨S64x2048x128, .f32⟩
  | .hbm, ⟨1, _⟩ => ⟨S131072x512, .f32⟩
  | .hbm, ⟨2, _⟩ => ⟨S512x128, .f32⟩
  | .hbm, ⟨3, _⟩ => ⟨S131072x128, .f32⟩
  | .hbm, ⟨4, _⟩ => ⟨S131072x128, .f32⟩
  | .hbm, ⟨5, _⟩ => ⟨S131072x512, .f32⟩
  | .hbm, ⟨6, _⟩ => ⟨S512x512, .f32⟩
  | .hbm, ⟨7, _⟩ => ⟨S512x512, .f32⟩
  | .hbm, ⟨8, _⟩ => ⟨S64x2048x128, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x512, .f32⟩
  | .local _ .vmem, ⟨3, _⟩ => ⟨S2048x512, .f32⟩
  | .local _ .vmem, ⟨4, _⟩ => ⟨S512x128, .f32⟩
  | .local _ .vmem, ⟨5, _⟩ => ⟨S2048x128, .f32⟩
  | .local _ .vmem, ⟨6, _⟩ => ⟨S2048x128, .f32⟩
  | .local _ .vmem, ⟨7, _⟩ => ⟨S2048x512, .f32⟩
  | .local _ .vmem, ⟨8, _⟩ => ⟨S2048x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_cst_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x2048x128_S131072x128 : S64x2048x128.ShapeCasts S131072x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x128_S512x128_0_0 : ∀ a, (![0, 0] : Fin 2 → Nat) a + S512x128.size a ≤ S512x128.size a
  h_S512x128 : 0 < S512x128.numel
  inb_S2048x512_S2048x512_0_0 : ∀ a, (![0, 0] : Fin 2 → Nat) a + S2048x512.size a ≤ S2048x512.size a
  h_S2048x512 : 0 < S2048x512.numel
  reduces_S512x128_S512 : S512x128.Reduces [1] S512
  shapeCasts_S512_S1x512 : S512.ShapeCasts S1x512
  transposes_S512x128_p1_0_S128x512 : S512x128.Transposes [1, 0] S128x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  reduces_S2048x512_S512 : S2048x512.Reduces [0] S512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  shapeCasts_S131072x128_S64x2048x128 : S131072x128.ShapeCasts S64x2048x128
  reducesTo_S512x512_S512_d0 : S512x512.ReducesTo [0] S512
  h_S_ : 0 < S_.numel
  bcast_S_S512 : S_.BroadcastsInDim S512 (![] : Fin 0 → Fin S512.rank)
  reducesTo_S512_S_d0 : S512.ReducesTo [0] S_
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S512x512.size a
  hwx0_5 : ∀ i : grid0.Coords, EltTy.bits .f32 = 32 ∨ (Rect.block (s := S512x512) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S512x512.size a
  hwx0_6 : ∀ i : grid0.Coords, EltTy.bits .f32 = 32 ∨ (Rect.block (s := S512x512) S8x512.size (cc0_transform_6 i) (hinb0_6 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S2048x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S8x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x2048x128 : Shape := ⟨3, ![64, 2048, 128]⟩
abbrev S131072x512 : Shape := ⟨2, ![131072, 512]⟩
abbrev S512x128 : Shape := ⟨2, ![512, 128]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S128x512 : Shape := ⟨2, ![128, 512]⟩

abbrev nBuf : Space → Nat
  | .hbm => 102
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S131072x512, .f32⟩
  | .hbm, ⟨2, _⟩ => ⟨S512x128, .f32⟩
  | .hbm, ⟨3, _⟩ => ⟨S131072x128, .f32⟩
  | .hbm, ⟨4, _⟩ => ⟨S131072x128, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S512x128, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S_, .f32⟩
  | .hbm, ⟨16, _⟩ => ⟨S131072x128, .f32⟩
  | .hbm, ⟨17, _⟩ => ⟨S131072x128, .f32⟩
  | .hbm, ⟨18, _⟩ => ⟨S128x512, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072, .f32⟩
  | .hbm, ⟨24, _⟩ => ⟨S_, .f32⟩
  | .hbm, ⟨25, _⟩ => ⟨S131072, .f32⟩
  | .hbm, ⟨26, _⟩ => ⟨S131072, .f32⟩
  | .hbm, ⟨27, _⟩ => ⟨S131072x1, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072, .f32⟩
  | .hbm, ⟨33, _⟩ => ⟨S131072x1, .f32⟩
  | .hbm, ⟨34, _⟩ => ⟨S131072x1, .f32⟩
  | .hbm, ⟨35, _⟩ => ⟨S131072x512, .f32⟩
  | .hbm, ⟨36, _⟩ => ⟨S131072x512, .f32⟩
  | .hbm, ⟨37, _⟩ => ⟨S131072x512, .f32⟩
  | .hbm, ⟨38, _⟩ => ⟨S_, .f32⟩
  | .hbm, ⟨39, _⟩ => ⟨S_, .f32⟩
  | .hbm, ⟨40, _⟩ => ⟨S131072x512, .f32⟩
  | .hbm, ⟨41, _⟩ => ⟨S131072x512, .f32⟩
  | .hbm, ⟨42, _⟩ => ⟨S_, .f32⟩
  | .hbm, ⟨43, _⟩ => ⟨S131072x512, .f32⟩
  | .hbm, ⟨44, _⟩ => ⟨S131072x512, .f32⟩
  | .hbm, ⟨45, _⟩ => ⟨S131072x512, .f32⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S_, .f32⟩
  | .hbm, ⟨51, _⟩ => ⟨S131072x512, .f32⟩
  | .hbm, ⟨52, _⟩ => ⟨S131072x512, .f32⟩
  | .hbm, ⟨53, _⟩ => ⟨S_, .f32⟩
  | .hbm, ⟨54, _⟩ => ⟨S131072, .f32⟩
  | .hbm, ⟨55, _⟩ => ⟨S_, .f32⟩
  | .hbm, ⟨56, _⟩ => ⟨S131072, .f32⟩
  | .hbm, ⟨57, _⟩ => ⟨S131072, .f32⟩
  | .hbm, ⟨58, _⟩ => ⟨S131072x1, .f32⟩
  | .hbm, ⟨59, _⟩ => ⟨S131072x512, .f32⟩
  | .hbm, ⟨60, _⟩ => ⟨S131072x512, .f32⟩
  | .hbm, ⟨61, _⟩ => ⟨S131072x512, .f32⟩
  | .hbm, ⟨62, _⟩ => ⟨S_, .f32⟩
  | .hbm, ⟨63, _⟩ => ⟨S131072, .f32⟩
  | .hbm, ⟨64, _⟩ => ⟨S131072x1, .f32⟩
  | .hbm, ⟨65, _⟩ => ⟨S131072x512, .f32⟩
  | .hbm, ⟨66, _⟩ => ⟨S131072x512, .f32⟩
  | .hbm, ⟨67, _⟩ => ⟨S131072x128, .f32⟩
  | .hbm, ⟨68, _⟩ => ⟨S64x2048x128, .f32⟩
  | .hbm, ⟨69, _⟩ => ⟨S64x2048x128, .f32⟩
  | .hbm, ⟨70, _⟩ => ⟨S64x2048x128, .f32⟩
  | .hbm, ⟨71, _⟩ => ⟨S_, .f32⟩
  | .hbm, ⟨72, _⟩ => ⟨S131072x512, .f32⟩
  | .hbm, ⟨73, _⟩ => ⟨S131072x512, .f32⟩
  | .hbm, ⟨74, _⟩ => ⟨S131072x512, .f32⟩
  | .hbm, ⟨75, _⟩ => ⟨S_, .f32⟩
  | .hbm, ⟨76, _⟩ => ⟨S131072x512, .f32⟩
  | .hbm, ⟨77, _⟩ => ⟨S131072x512, .i1⟩
  | .hbm, ⟨78, _⟩ => ⟨S_, .f32⟩
  | .hbm, ⟨79, _⟩ => ⟨S_, .f32⟩
  | .hbm, ⟨80, _⟩ => ⟨S131072x512, .f32⟩
  | .hbm, ⟨81, _⟩ => ⟨S131072x512, .f32⟩
  | .hbm, ⟨82, _⟩ => ⟨S_, .f32⟩
  | .hbm, ⟨83, _⟩ => ⟨S512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S_, .f32⟩
  | .hbm, ⟨94, _⟩ => ⟨S512, .f32⟩
  | .hbm, ⟨95, _⟩ => ⟨S512, .f32⟩
  | .hbm, ⟨96, _⟩ => ⟨S512, .f32⟩
  | .hbm, ⟨97, _⟩ => ⟨S512, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_cst_1 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_call2_v0 : Ref sig .tc := ⟨.hbm, 79, rfl⟩
abbrev main_call2_v1 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_cst_12 : Ref sig .tc := ⟨.hbm, 84, rfl⟩
abbrev main_v48 : Ref sig .tc := ⟨.hbm, 85, rfl⟩
abbrev main_cst_13 : Ref sig .tc := ⟨.hbm, 86, rfl⟩
abbrev main_v49 : Ref sig .tc := ⟨.hbm, 87, rfl⟩
abbrev main_cst_14 : Ref sig .tc := ⟨.hbm, 88, rfl⟩
abbrev main_v50 : Ref sig .tc := ⟨.hbm, 89, rfl⟩
abbrev main_cst_15 : Ref sig .tc := ⟨.hbm, 90, rfl⟩
abbrev main_v51 : Ref sig .tc := ⟨.hbm, 91, rfl⟩
abbrev main_v52 : Ref sig .tc := ⟨.hbm, 92, rfl⟩
abbrev main_cst_16 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_17 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩

abbrev nD : Nat := 1
abbrev τ : Topo := Topo.v7x

variable {F : FTy → Type} [FloatOps F]

class Facts₀ : Prop where
  shapeCasts_S64x2048x128_S131072x128 : S64x2048x128.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S512x128_S512_d1 : S512x128.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x128 : S_.BroadcastsInDim S131072x128 (![] : Fin 0 → Fin S131072x128.rank)
  transposes_S512x128_S128x512_1_0 : S512x128.Transposes [1, 0] S128x512
  reducesTo_S131072x512_S131072_d1 : S131072x512.ReducesTo [1] S131072
  bcast_S_S131072 : S_.BroadcastsInDim S131072 (![] : Fin 0 → Fin S131072.rank)
  bcast_S_S131072x512 : S_.BroadcastsInDim S131072x512 (![] : Fin 0 → Fin S131072x512.rank)
  shapeCasts_S131072x128_S64x2048x128 : S131072x128.ShapeCasts S64x2048x128
  reducesTo_S131072x512_S512_d0 : S131072x512.ReducesTo [0] S512
  reducesTo_S512_S_d0 : S512.ReducesTo [0] S_
  bcast_S_S512 : S_.BroadcastsInDim S512 (![] : Fin 0 → Fin S512.rank)
  dot_S131072x128_S128x512_S131072x512_1_0_0_1_n_n_wf : DotDims.WF S131072x128 S128x512 S131072x512 [1] [0] [0] [1] [] []
  dot_S131072x512_S512x128_S131072x128_1_0_0_1_n_n_wf : DotDims.WF S131072x512 S512x128 S131072x128 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf

class Facts : Prop extends Facts₀ where

variable [Facts]
-- ==== Proof.RefSteps1.lean ====
/-
  The reference's buffers after its 99 operations, one at a time, in program order (operations 1 to 33): the buffer an
  operation writes ends at the operation's function of the buffers it reads, and those end at their own stages, so it ends
  at its own stage (the definition val_<buffer>) of the argument arrays. Each case unfolds the stage one step, turns the
  operands' stages back into the operands' final contents, and lets the same normalisation of the fold over the operation
  list meet on both sides.
-/
import proofs.«111803_j8821862826425_2_alg».proof.Proof.RefRead

noncomputable section

namespace Cert.ReferenceIdeal.Steps

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

-- the vector operations stay folded: each case compares two copies of one term, apart from the buffers' type transports
attribute [local irreducible] Host.reduce Host.reduceAdd shapeCast broadcastInDim transpose select cmpf mulf subf addf maximumf minimumf Host.exp Host.log Host.negf Host.divf constant

set_option maxRecDepth 65536 in
set_option maxHeartbeats 4000000 in
theorem st_main_v0 (V : Valuation τ sig (Elt F)) :
    after ops V (Proc.devRef .tc main_v0) = Read.val_main_v0 (F := F) (V (Proc.devRef .tc main_arg0)) := by
  unfold Read.val_main_v0
  after_results_simp <;> rfl

set_option maxRecDepth 65536 in
set_option maxHeartbeats 4000000 in
theorem st_main_v1 (V : Valuation τ sig (Elt F)) :
    after ops V (Proc.devRef .tc main_v1) = Read.val_main_v1 (F := F) (V (Proc.devRef .tc main_arg0)) := by
  unfold Read.val_main_v1
  rw [← st_main_v0 V]
  after_results_simp <;> rfl

set_option maxRecDepth 65536 in
set_option maxHeartbeats 4000000 in
theorem st_main_cst (V : Valuation τ sig (Elt F)) :
    after ops V (Proc.devRef .tc main_cst) = Read.val_main_cst (F := F) := by
  unfold Read.val_main_cst
  after_results_simp <;> rfl

set_option maxRecDepth 65536 in
set_option maxHeartbeats 4000000 in
theorem st_main_v2 (V : Valuation τ sig (Elt F)) :
    after ops V (Proc.devRef .tc main_v2) = Read.val_main_v2 (F := F) (V (Proc.devRef .tc main_arg0)) := by
  unfold Read.val_main_v2
  rw [← st_main_v1 V, ← st_main_cst V]
  after_results_simp <;> rfl

set_option maxRecDepth 65536 in
set_option maxHeartbeats 4000000 in
theorem st_main_v3 (V : Valuation τ sig (Elt F)) :
    after ops V (Proc.devRef .tc main_v3) = Read.val_main_v3 (F := F) (V (Proc.devRef .tc main_arg0)) := by
  unfold Read.val_main_v3
  rw [← st_main_v2 V]
  after_results_simp <;> rfl

set_option maxRecDepth 65536 in
set_option maxHeartbeats 4000000 in
theorem st_main_v4 (V : Valuation τ sig (Elt F)) :
    after ops V (Proc.devRef .tc main_v4) = Read.val_main_v4 (F := F) (V (Proc.devRef .tc main_arg2)) := by
  unfold Read.val_main_v4
  after_results_simp <;> rfl

set_option maxRecDepth 65536 in
set_option maxHeartbeats 4000000 in
theorem st_main_cst_0 (V : Valuation τ sig (Elt F)) :
    after ops V (Proc.devRef .tc main_cst_0) = Read.val_main_cst_0 (F := F) := by
  unfold Read.val_main_cst_0
  after_results_simp <;> rfl

set_option maxRecDepth 65536 in
set_option maxHeartbeats 4000000 in
theorem st_main_v5 (V : Valuation τ sig (Elt F)) :
    after ops V (Proc.devRef .tc main_v5) = Read.val_main_v5 (F := F) (V (Proc.devRef .tc main_arg2)) := by
  unfold Read.val_main_v5
  rw [← st_main_v4 V, ← st_main_cst_0 V]
  after_results_simp <;> rfl

set_option maxRecDepth 65536 in
set_option maxHeartbeats 4000000 in
theorem st_main_v6 (V : Valuation τ sig (Elt F)) :
    after ops V (Proc.devRef .tc main_v6) = Read.val_main_v6 (F := F) (V (Proc.devRef .tc main_arg2)) := by
  unfold Read.val_main_v6
  rw [← st_main_v5 V]
  after_results_simp <;> rfl

set_option maxRecDepth 65536 in
set_option maxHeartbeats 4000000 in
theorem st_main_v7 (V : Valuation τ sig (Elt F)) :
    after ops V (Proc.devRef .tc main_v7) = Read.val_main_v7 (F := F) (V (Proc.devRef .tc main_arg0)) := by
  unfold Read.val_main_v7
  rw [← st_main_v3 V]
  after_results_simp <;> rfl

set_option maxRecDepth 65536 in
set_option maxHeartbeats 4000000 in
theorem st_main_v8 (V : Valuation τ sig (Elt F)) :
    after ops V (Proc.devRef .tc main_v8) = Read.val_main_v8 (F := F) (V (Proc.devRef .tc main_arg2)) := by
  unfold Read.val_main_v8
  rw [← st_main_v6 V]
  after_results_simp <;> rfl

set_option maxRecDepth 65536 in
set_option maxHeartbeats 4000000 in
theorem st_main_v9 (V : Valuation τ sig (Elt F)) :
    after ops V (Proc.devRef .tc main_v9) = Read.val_main_v9 (F := F) (V (Proc.devRef .tc main_arg0)) (V (Proc.devRef .tc main_arg2)) := by
  unfold Read.val_main_v9
  rw [← st_main_v7 V, ← st_main_v8 V]
  after_results_simp <;> rfl

set_option maxRecDepth 65536 in
set_option maxHeartbeats 4000000 in
theorem st_main_cst_1 (V : Valuation τ sig (Elt F)) :
    after ops V (Proc.devRef .tc main_cst_1) = Read.val_main_cst_1 (F := F) := by
  unfold Read.val_main_cst_1
  after_results_simp <;> rfl

set_option maxRecDepth 65536 in
set_option maxHeartbeats 4000000 in
theorem st_main_v10 (V : Valuation τ sig (Elt F)) :
    after ops V (Proc.devRef .tc main_v10) = Read.val_main_v10 (F := F) := by
  unfold Read.val_main_v10
  rw [← st_main_cst_1 V]
  after_results_simp <;> rfl

set_option maxRecDepth 65536 in
set_option maxHeartbeats 4000000 in
theorem st_main_v11 (V : Valuation τ sig (Elt F)) :
    after ops V (Proc.devRef .tc main_v11) = Read.val_main_v11 (F := F) (V (Proc.devRef .tc main_arg0)) := by
  unfold Read.val_main_v11
  rw [← st_main_v10 V, ← st_main_v0 V]
  after_results_simp <;> rfl

set_option maxRecDepth 65536 in
set_option maxHeartbeats 4000000 in
theorem st_main_v12 (V : Valuation τ sig (Elt F)) :
    after ops V (Proc.devRef .tc main_v12) = Read.val_main_v12 (F := F) (V (Proc.devRef .tc main_arg2)) := by
  unfold Read.val_main_v12
  after_results_simp <;> rfl

set_option maxRecDepth 65536 in
set_option maxHeartbeats 4000000 in
theorem st_main_v13 (V : Valuation τ sig (Elt F)) :
    after ops V (Proc.devRef .tc main_v13) = Read.val_main_v13 (F := F) (V (Proc.devRef .tc main_arg0)) (V (Proc.devRef .tc main_arg2)) := by
  unfold Read.val_main_v13
  rw [← st_main_v11 V, ← st_main_v12 V]
  after_results_simp <;> rfl

set_option maxRecDepth 65536 in
set_option maxHeartbeats 4000000 in
theorem st_main_v14 (V : Valuation τ sig (Elt F)) :
    after ops V (Proc.devRef .tc main_v14) = Read.val_main_v14 (F := F) (V (Proc.devRef .tc main_arg0)) (V (Proc.devRef .tc main_arg2)) := by
  unfold Read.val_main_v14
  rw [← st_main_v9 V, ← st_main_v13 V]
  after_results_simp <;> rfl

set_option maxRecDepth 65536 in
set_option maxHeartbeats 4000000 in
theorem st_main_v15 (V : Valuation τ sig (Elt F)) :
    after ops V (Proc.devRef .tc main_v15) = Read.val_main_v15 (F := F) (V (Proc.devRef .tc main_arg0)) (V (Proc.devRef .tc main_arg2)) := by
  unfold Read.val_main_v15
  rw [← st_main_v14 V]
  after_results_simp <;> rfl

set_option maxRecDepth 65536 in
set_option maxHeartbeats 4000000 in
theorem st_main_call0_cst (V : Valuation τ sig (Elt F)) :
    after ops V (Proc.devRef .tc main_call0_cst) = Read.val_main_call0_cst (F := F) := by
  unfold Read.val_main_call0_cst
  after_results_simp <;> rfl

set_option maxRecDepth 65536 in
set_option maxHeartbeats 4000000 in
theorem st_main_call0_v0 (V : Valuation τ sig (Elt F)) :
    after ops V (Proc.devRef .tc main_call0_v0) = Read.val_main_call0_v0 (F := F) (V (Proc.devRef .tc main_arg0)) (V (Proc.devRef .tc main_arg2)) := by
  unfold Read.val_main_call0_v0
  rw [← st_main_v15 V, ← st_main_call0_cst V]
  after_results_simp <;> rfl

set_option maxRecDepth 65536 in
set_option maxHeartbeats 4000000 in
theorem st_main_call0_cst_0 (V : Valuation τ sig (Elt F)) :
    after ops V (Proc.devRef .tc main_call0_cst_0) = Read.val_main_call0_cst_0 (F := F) := by
  unfold Read.val_main_call0_cst_0
  after_results_simp <;> rfl

set_option maxRecDepth 65536 in
set_option maxHeartbeats 4000000 in
theorem st_main_call0_v1 (V : Valuation τ sig (Elt F)) :
    after ops V (Proc.devRef .tc main_call0_v1) = Read.val_main_call0_v1 (F := F) := by
  unfold Read.val_main_call0_v1
  rw [← st_main_call0_cst_0 V]
  after_results_simp <;> rfl

set_option maxRecDepth 65536 in
set_option maxHeartbeats 4000000 in
theorem st_main_call0_v2 (V : Valuation τ sig (Elt F)) :
    after ops V (Proc.devRef .tc main_call0_v2) = Read.val_main_call0_v2 (F := F) (V (Proc.devRef .tc main_arg0)) (V (Proc.devRef .tc main_arg2)) := by
  unfold Read.val_main_call0_v2
  rw [← st_main_call0_v1 V, ← st_main_call0_v0 V]
  after_results_simp <;> rfl

set_option maxRecDepth 65536 in
set_option maxHeartbeats 4000000 in
theorem st_main_call0_v3 (V : Valuation τ sig (Elt F)) :
    after ops V (Proc.devRef .tc main_call0_v3) = Read.val_main_call0_v3 (F := F) (V (Proc.devRef .tc main_arg0)) (V (Proc.devRef .tc main_arg2)) := by
  unfold Read.val_main_call0_v3
  rw [← st_main_call0_v2 V]
  after_results_simp <;> rfl

set_option maxRecDepth 65536 in
set_option maxHeartbeats 4000000 in
theorem st_main_call0_v4 (V : Valuation τ sig (Elt F)) :
    after ops V (Proc.devRef .tc main_call0_v4) = Read.val_main_call0_v4 (F := F) (V (Proc.devRef .tc main_arg0)) (V (Proc.devRef .tc main_arg2)) := by
  unfold Read.val_main_call0_v4
  rw [← st_main_call0_v3 V]
  after_results_simp <;> rfl

set_option maxRecDepth 65536 in
set_option maxHeartbeats 4000000 in
theorem st_main_call0_v5 (V : Valuation τ sig (Elt F)) :
    after ops V (Proc.devRef .tc main_call0_v5) = Read.val_main_call0_v5 (F := F) (V (Proc.devRef .tc main_arg0)) (V (Proc.devRef .tc main_arg2)) := by
  unfold Read.val_main_call0_v5
  rw [← st_main_v15 V, ← st_main_call0_v4 V]
  after_results_simp <;> rfl

set_option maxRecDepth 65536 in
set_option maxHeartbeats 4000000 in
theorem st_main_call0_v6 (V : Valuation τ sig (Elt F)) :
    after ops V (Proc.devRef .tc main_call0_v6) = Read.val_main_call0_v6 (F := F) (V (Proc.devRef .tc main_arg0)) (V (Proc.devRef .tc main_arg2)) := by
  unfold Read.val_main_call0_v6
  rw [← st_main_call0_v5 V]
  after_results_simp <;> rfl

set_option maxRecDepth 65536 in
set_option maxHeartbeats 4000000 in
theorem st_main_call0_cst_1 (V : Valuation τ sig (Elt F)) :
    after ops V (Proc.devRef .tc main_call0_cst_1) = Read.val_main_call0_cst_1 (F := F) := by
  unfold Read.val_main_call0_cst_1
  after_results_simp <;> rfl

set_option maxRecDepth 65536 in
set_option maxHeartbeats 4000000 in
theorem st_main_call0_v7 (V : Valuation τ sig (Elt F)) :
    after ops V (Proc.devRef .tc main_call0_v7) = Read.val_main_call0_v7 (F := F) (V (Proc.devRef .tc main_arg0)) (V (Proc.devRef .tc main_arg2)) := by
  unfold Read.val_main_call0_v7
  rw [← st_main_call0_v6 V, ← st_main_call0_cst_1 V]
  after_results_simp <;> rfl

set_option maxRecDepth 65536 in
set_option maxHeartbeats 4000000 in
theorem st_main_call0_v8 (V : Valuation τ sig (Elt F)) :
    after ops V (Proc.devRef .tc main_call0_v8) = Read.val_main_call0_v8 (F := F) (V (Proc.devRef .tc main_arg0)) (V (Proc.devRef .tc main_arg2)) := by
  unfold Read.val_main_call0_v8
  rw [← st_main_call0_v7 V]
  after_results_simp <;> rfl

set_option maxRecDepth 65536 in
set_option maxHeartbeats 4000000 in
theorem st_main_call0_v9 (V : Valuation τ sig (Elt F)) :
    after ops V (Proc.devRef .tc main_call0_v9) = Read.val_main_call0_v9 (F := F) (V (Proc.devRef .tc main_arg0)) (V (Proc.devRef .tc main_arg2)) := by
  unfold Read.val_main_call0_v9
  rw [← st_main_call0_v8 V]
  after_results_simp <;> rfl

set_option maxRecDepth 65536 in
set_option maxHeartbeats 4000000 in
theorem st_main_call0_v10 (V : Valuation τ sig (Elt F)) :
    after ops V (Proc.devRef .tc main_call0_v10) = Read.val_main_call0_v10 (F := F) (V (Proc.devRef .tc main_arg0)) (V (Proc.devRef .tc main_arg2)) := by
  unfold Read.val_main_call0_v10
  rw [← st_main_call0_v9 V]
  after_results_simp <;> rfl

end Cert.ReferenceIdeal.Steps

end
-- ==== Proof.RefSteps2.lean ====
/-
  The reference's buffers after its 99 operations, one at a time, in program order (operations 34 to 66): the buffer an
  operation writes ends at the operation's function of the buffers it reads, and those end at their own stages, so it ends
  at its own stage (the definition val_<buffer>) of the argument arrays. Each case unfolds the stage one step, turns the
  operands' stages back into the operands' final contents, and lets the same normalisation of the fold over the operation
  list meet on both sides.
-/
import proofs.«111803_j8821862826425_2_alg».proof.Proof.RefSteps1

noncomputable section

namespace Cert.ReferenceIdeal.Steps

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

-- the vector operations stay folded: each case compares two copies of one term, apart from the buffers' type transports
attribute [local irreducible] Host.reduce Host.reduceAdd shapeCast broadcastInDim transpose select cmpf mulf subf addf maximumf minimumf Host.exp Host.log Host.negf Host.divf constant

set_option maxRecDepth 65536 in
set_option maxHeartbeats 4000000 in
theorem st_main_v16 (V : Valuation τ sig (Elt F)) :
    after ops V (Proc.devRef .tc main_v16) = Read.val_main_v16 (F := F) (V (Proc.devRef .tc main_arg0)) (V (Proc.devRef .tc main_arg2)) := by
  unfold Read.val_main_v16
  rw [← st_main_call0_v5 V, ← st_main_call0_v10 V]
  after_results_simp <;> rfl

set_option maxRecDepth 65536 in
set_option maxHeartbeats 4000000 in
theorem st_main_v17 (V : Valuation τ sig (Elt F)) :
    after ops V (Proc.devRef .tc main_v17) = Read.val_main_v17 (F := F) (V (Proc.devRef .tc main_arg0)) (V (Proc.devRef .tc main_arg2)) := by
  unfold Read.val_main_v17
  rw [← st_main_v16 V]
  after_results_simp <;> rfl

set_option maxRecDepth 65536 in
set_option maxHeartbeats 4000000 in
theorem st_main_cst_2 (V : Valuation τ sig (Elt F)) :
    after ops V (Proc.devRef .tc main_cst_2) = Read.val_main_cst_2 (F := F) := by
  unfold Read.val_main_cst_2
  after_results_simp <;> rfl

set_option maxRecDepth 65536 in
set_option maxHeartbeats 4000000 in
theorem st_main_cst_3 (V : Valuation τ sig (Elt F)) :
    after ops V (Proc.devRef .tc main_cst_3) = Read.val_main_cst_3 (F := F) := by
  unfold Read.val_main_cst_3
  after_results_simp <;> rfl

set_option maxRecDepth 65536 in
set_option maxHeartbeats 4000000 in
theorem st_main_call1_v0 (V : Valuation τ sig (Elt F)) :
    after ops V (Proc.devRef .tc main_call1_v0) = Read.val_main_call1_v0 (F := F) := by
  unfold Read.val_main_call1_v0
  rw [← st_main_cst_2 V]
  after_results_simp <;> rfl

set_option maxRecDepth 65536 in
set_option maxHeartbeats 4000000 in
theorem st_main_call1_v1 (V : Valuation τ sig (Elt F)) :
    after ops V (Proc.devRef .tc main_call1_v1) = Read.val_main_call1_v1 (F := F) (V (Proc.devRef .tc main_arg1)) := by
  unfold Read.val_main_call1_v1
  rw [← st_main_call1_v0 V]
  after_results_simp <;> rfl

set_option maxRecDepth 65536 in
set_option maxHeartbeats 4000000 in
theorem st_main_call1_v2 (V : Valuation τ sig (Elt F)) :
    after ops V (Proc.devRef .tc main_call1_v2) = Read.val_main_call1_v2 (F := F) := by
  unfold Read.val_main_call1_v2
  rw [← st_main_cst_3 V]
  after_results_simp <;> rfl

set_option maxRecDepth 65536 in
set_option maxHeartbeats 4000000 in
theorem st_main_call1_v3 (V : Valuation τ sig (Elt F)) :
    after ops V (Proc.devRef .tc main_call1_v3) = Read.val_main_call1_v3 (F := F) := by
  unfold Read.val_main_call1_v3
  rw [← st_main_call1_v2 V]
  after_results_simp <;> rfl

set_option maxRecDepth 65536 in
set_option maxHeartbeats 4000000 in
theorem st_main_v18 (V : Valuation τ sig (Elt F)) :
    after ops V (Proc.devRef .tc main_v18) = Read.val_main_v18 (F := F) (V (Proc.devRef .tc main_arg1)) := by
  unfold Read.val_main_v18
  rw [← st_main_call1_v3 V, ← st_main_call1_v1 V]
  after_results_simp <;> rfl

set_option maxRecDepth 65536 in
set_option maxHeartbeats 4000000 in
theorem st_main_v19 (V : Valuation τ sig (Elt F)) :
    after ops V (Proc.devRef .tc main_v19) = Read.val_main_v19 (F := F) (V (Proc.devRef .tc main_arg1)) := by
  unfold Read.val_main_v19
  rw [← st_main_v18 V]
  after_results_simp <;> rfl

set_option maxRecDepth 65536 in
set_option maxHeartbeats 4000000 in
theorem st_main_v20 (V : Valuation τ sig (Elt F)) :
    after ops V (Proc.devRef .tc main_v20) = Read.val_main_v20 (F := F) (V (Proc.devRef .tc main_arg1)) := by
  unfold Read.val_main_v20
  rw [← st_main_v19 V]
  after_results_simp <;> rfl

set_option maxRecDepth 65536 in
set_option maxHeartbeats 4000000 in
theorem st_main_v21 (V : Valuation τ sig (Elt F)) :
    after ops V (Proc.devRef .tc main_v21) = Read.val_main_v21 (F := F) (V (Proc.devRef .tc main_arg1)) := by
  unfold Read.val_main_v21
  rw [← st_main_v20 V]
  after_results_simp <;> rfl

set_option maxRecDepth 65536 in
set_option maxHeartbeats 4000000 in
theorem st_main_v22 (V : Valuation τ sig (Elt F)) :
    after ops V (Proc.devRef .tc main_v22) = Read.val_main_v22 (F := F) (V (Proc.devRef .tc main_arg1)) := by
  unfold Read.val_main_v22
  rw [← st_main_v21 V]
  after_results_simp <;> rfl

set_option maxRecDepth 65536 in
set_option maxHeartbeats 4000000 in
theorem st_main_v23 (V : Valuation τ sig (Elt F)) :
    after ops V (Proc.devRef .tc main_v23) = Read.val_main_v23 (F := F) (V (Proc.devRef .tc main_arg0)) (V (Proc.devRef .tc main_arg1)) (V (Proc.devRef .tc main_arg2)) := by
  unfold Read.val_main_v23
  rw [← st_main_v15 V, ← st_main_v22 V]
  after_results_simp <;> rfl

set_option maxRecDepth 65536 in
set_option maxHeartbeats 4000000 in
theorem st_main_cst_4 (V : Valuation τ sig (Elt F)) :
    after ops V (Proc.devRef .tc main_cst_4) = Read.val_main_cst_4 (F := F) := by
  unfold Read.val_main_cst_4
  after_results_simp <;> rfl

set_option maxRecDepth 65536 in
set_option maxHeartbeats 4000000 in
theorem st_main_v24 (V : Valuation τ sig (Elt F)) :
    after ops V (Proc.devRef .tc main_v24) = Read.val_main_v24 (F := F) := by
  unfold Read.val_main_v24
  rw [← st_main_cst_4 V]
  after_results_simp <;> rfl

set_option maxRecDepth 65536 in
set_option maxHeartbeats 4000000 in
theorem st_main_v25 (V : Valuation τ sig (Elt F)) :
    after ops V (Proc.devRef .tc main_v25) = Read.val_main_v25 (F := F) (V (Proc.devRef .tc main_arg0)) (V (Proc.devRef .tc main_arg1)) (V (Proc.devRef .tc main_arg2)) := by
  unfold Read.val_main_v25
  rw [← st_main_v23 V, ← st_main_v24 V]
  after_results_simp <;> rfl

set_option maxRecDepth 65536 in
set_option maxHeartbeats 4000000 in
theorem st_main_cst_5 (V : Valuation τ sig (Elt F)) :
    after ops V (Proc.devRef .tc main_cst_5) = Read.val_main_cst_5 (F := F) := by
  unfold Read.val_main_cst_5
  after_results_simp <;> rfl

set_option maxRecDepth 65536 in
set_option maxHeartbeats 4000000 in
theorem st_main_v26 (V : Valuation τ sig (Elt F)) :
    after ops V (Proc.devRef .tc main_v26) = Read.val_main_v26 (F := F) (V (Proc.devRef .tc main_arg0)) (V (Proc.devRef .tc main_arg1)) (V (Proc.devRef .tc main_arg2)) := by
  unfold Read.val_main_v26
  rw [← st_main_v25 V, ← st_main_cst_5 V]
  after_results_simp <;> rfl

set_option maxRecDepth 65536 in
set_option maxHeartbeats 4000000 in
theorem st_main_cst_6 (V : Valuation τ sig (Elt F)) :
    after ops V (Proc.devRef .tc main_cst_6) = Read.val_main_cst_6 (F := F) := by
  unfold Read.val_main_cst_6
  after_results_simp <;> rfl

set_option maxRecDepth 65536 in
set_option maxHeartbeats 4000000 in
theorem st_main_v27 (V : Valuation τ sig (Elt F)) :
    after ops V (Proc.devRef .tc main_v27) = Read.val_main_v27 (F := F) := by
  unfold Read.val_main_v27
  rw [← st_main_cst_6 V]
  after_results_simp <;> rfl

set_option maxRecDepth 65536 in
set_option maxHeartbeats 4000000 in
theorem st_main_v28 (V : Valuation τ sig (Elt F)) :
    after ops V (Proc.devRef .tc main_v28) = Read.val_main_v28 (F := F) (V (Proc.devRef .tc main_arg0)) (V (Proc.devRef .tc main_arg1)) (V (Proc.devRef .tc main_arg2)) := by
  unfold Read.val_main_v28
  rw [← st_main_v27 V, ← st_main_v26 V]
  after_results_simp <;> rfl

set_option maxRecDepth 65536 in
set_option maxHeartbeats 4000000 in
theorem st_main_v29 (V : Valuation τ sig (Elt F)) :
    after ops V (Proc.devRef .tc main_v29) = Read.val_main_v29 (F := F) (V (Proc.devRef .tc main_arg0)) (V (Proc.devRef .tc main_arg1)) (V (Proc.devRef .tc main_arg2)) := by
  unfold Read.val_main_v29
  rw [← st_main_v28 V]
  after_results_simp <;> rfl

set_option maxRecDepth 65536 in
set_option maxHeartbeats 4000000 in
theorem st_main_v30 (V : Valuation τ sig (Elt F)) :
    after ops V (Proc.devRef .tc main_v30) = Read.val_main_v30 (F := F) (V (Proc.devRef .tc main_arg0)) (V (Proc.devRef .tc main_arg1)) (V (Proc.devRef .tc main_arg2)) := by
  unfold Read.val_main_v30
  rw [← st_main_v29 V]
  after_results_simp <;> rfl

set_option maxRecDepth 65536 in
set_option maxHeartbeats 4000000 in
theorem st_main_v31 (V : Valuation τ sig (Elt F)) :
    after ops V (Proc.devRef .tc main_v31) = Read.val_main_v31 (F := F) (V (Proc.devRef .tc main_arg0)) (V (Proc.devRef .tc main_arg1)) (V (Proc.devRef .tc main_arg2)) := by
  unfold Read.val_main_v31
  rw [← st_main_v25 V, ← st_main_v30 V]
  after_results_simp <;> rfl

set_option maxRecDepth 65536 in
set_option maxHeartbeats 4000000 in
theorem st_main_v32 (V : Valuation τ sig (Elt F)) :
    after ops V (Proc.devRef .tc main_v32) = Read.val_main_v32 (F := F) (V (Proc.devRef .tc main_arg0)) (V (Proc.devRef .tc main_arg1)) (V (Proc.devRef .tc main_arg2)) := by
  unfold Read.val_main_v32
  rw [← st_main_v31 V]
  after_results_simp <;> rfl

set_option maxRecDepth 65536 in
set_option maxHeartbeats 4000000 in
theorem st_main_cst_7 (V : Valuation τ sig (Elt F)) :
    after ops V (Proc.devRef .tc main_cst_7) = Read.val_main_cst_7 (F := F) := by
  unfold Read.val_main_cst_7
  after_results_simp <;> rfl

set_option maxRecDepth 65536 in
set_option maxHeartbeats 4000000 in
theorem st_main_v33 (V : Valuation τ sig (Elt F)) :
    after ops V (Proc.devRef .tc main_v33) = Read.val_main_v33 (F := F) (V (Proc.devRef .tc main_arg0)) (V (Proc.devRef .tc main_arg1)) (V (Proc.devRef .tc main_arg2)) := by
  unfold Read.val_main_v33
  rw [← st_main_v32 V, ← st_main_cst_7 V]
  after_results_simp <;> rfl

set_option maxRecDepth 65536 in
set_option maxHeartbeats 4000000 in
theorem st_main_v34 (V : Valuation τ sig (Elt F)) :
    after ops V (Proc.devRef .tc main_v34) = Read.val_main_v34 (F := F) (V (Proc.devRef .tc main_arg0)) (V (Proc.devRef .tc main_arg1)) (V (Proc.devRef .tc main_arg2)) := by
  unfold Read.val_main_v34
  rw [← st_main_v33 V]
  after_results_simp <;> rfl

set_option maxRecDepth 65536 in
set_option maxHeartbeats 4000000 in
theorem st_main_v35 (V : Valuation τ sig (Elt F)) :
    after ops V (Proc.devRef .tc main_v35) = Read.val_main_v35 (F := F) (V (Proc.devRef .tc main_arg0)) (V (Proc.devRef .tc main_arg1)) (V (Proc.devRef .tc main_arg2)) := by
  unfold Read.val_main_v35
  rw [← st_main_v34 V]
  after_results_simp <;> rfl

set_option maxRecDepth 65536 in
set_option maxHeartbeats 4000000 in
theorem st_main_v36 (V : Valuation τ sig (Elt F)) :
    after ops V (Proc.devRef .tc main_v36) = Read.val_main_v36 (F := F) (V (Proc.devRef .tc main_arg0)) (V (Proc.devRef .tc main_arg1)) (V (Proc.devRef .tc main_arg2)) := by
  unfold Read.val_main_v36
  rw [← st_main_v32 V, ← st_main_v35 V]
  after_results_simp <;> rfl

set_option maxRecDepth 65536 in
set_option maxHeartbeats 4000000 in
theorem st_main_v37 (V : Valuation τ sig (Elt F)) :
    after ops V (Proc.devRef .tc main_v37) = Read.val_main_v37 (F := F) (V (Proc.devRef .tc main_arg0)) (V (Proc.devRef .tc main_arg1)) (V (Proc.devRef .tc main_arg2)) := by
  unfold Read.val_main_v37
  rw [← st_main_v36 V]
  after_results_simp <;> rfl

set_option maxRecDepth 65536 in
set_option maxHeartbeats 4000000 in
theorem st_main_v38 (V : Valuation τ sig (Elt F)) :
    after ops V (Proc.devRef .tc main_v38) = Read.val_main_v38 (F := F) (V (Proc.devRef .tc main_arg0)) (V (Proc.devRef .tc main_arg1)) (V (Proc.devRef .tc main_arg2)) := by
  unfold Read.val_main_v38
  rw [← st_main_v37 V]
  after_results_simp <;> rfl

end Cert.ReferenceIdeal.Steps

end
-- ==== Proof.RefSteps3.lean ====
/-
  The reference's buffers after its 99 operations, one at a time, in program order (operations 67 to 99): the buffer an
  operation writes ends at the operation's function of the buffers it reads, and those end at their own stages, so it ends
  at its own stage (the definition val_<buffer>) of the argument arrays. Each case unfolds the stage one step, turns the
  operands' stages back into the operands' final contents, and lets the same normalisation of the fold over the operation
  list meet on both sides.
-/
import proofs.«111803_j8821862826425_2_alg».proof.Proof.RefSteps2

noncomputable section

namespace Cert.ReferenceIdeal.Steps

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

-- the vector operations stay folded: each case compares two copies of one term, apart from the buffers' type transports
attribute [local irreducible] Host.reduce Host.reduceAdd shapeCast broadcastInDim transpose select cmpf mulf subf addf maximumf minimumf Host.exp Host.log Host.negf Host.divf constant

set_option maxRecDepth 65536 in
set_option maxHeartbeats 4000000 in
theorem st_main_v39 (V : Valuation τ sig (Elt F)) :
    after ops V (Proc.devRef .tc main_v39) = Read.val_main_v39 (F := F) (V (Proc.devRef .tc main_arg0)) (V (Proc.devRef .tc main_arg1)) (V (Proc.devRef .tc main_arg2)) := by
  unfold Read.val_main_v39
  rw [← st_main_v38 V]
  after_results_simp <;> rfl

set_option maxRecDepth 65536 in
set_option maxHeartbeats 4000000 in
theorem st_main_v40 (V : Valuation τ sig (Elt F)) :
    after ops V (Proc.devRef .tc main_v40) = Read.val_main_v40 (F := F) (V (Proc.devRef .tc main_arg0)) (V (Proc.devRef .tc main_arg1)) (V (Proc.devRef .tc main_arg2)) := by
  unfold Read.val_main_v40
  rw [← st_main_v39 V]
  after_results_simp <;> rfl

set_option maxRecDepth 65536 in
set_option maxHeartbeats 4000000 in
theorem st_main_cst_8 (V : Valuation τ sig (Elt F)) :
    after ops V (Proc.devRef .tc main_cst_8) = Read.val_main_cst_8 (F := F) := by
  unfold Read.val_main_cst_8
  after_results_simp <;> rfl

set_option maxRecDepth 65536 in
set_option maxHeartbeats 4000000 in
theorem st_main_v41 (V : Valuation τ sig (Elt F)) :
    after ops V (Proc.devRef .tc main_v41) = Read.val_main_v41 (F := F) := by
  unfold Read.val_main_v41
  rw [← st_main_cst_8 V]
  after_results_simp <;> rfl

set_option maxRecDepth 65536 in
set_option maxHeartbeats 4000000 in
theorem st_main_v42 (V : Valuation τ sig (Elt F)) :
    after ops V (Proc.devRef .tc main_v42) = Read.val_main_v42 (F := F) (V (Proc.devRef .tc main_arg0)) (V (Proc.devRef .tc main_arg2)) := by
  unfold Read.val_main_v42
  rw [← st_main_v16 V, ← st_main_v41 V]
  after_results_simp <;> rfl

set_option maxRecDepth 65536 in
set_option maxHeartbeats 4000000 in
theorem st_main_v43 (V : Valuation τ sig (Elt F)) :
    after ops V (Proc.devRef .tc main_v43) = Read.val_main_v43 (F := F) (V (Proc.devRef .tc main_arg0)) (V (Proc.devRef .tc main_arg2)) := by
  unfold Read.val_main_v43
  rw [← st_main_v17 V, ← st_main_v42 V]
  after_results_simp <;> rfl

set_option maxRecDepth 65536 in
set_option maxHeartbeats 4000000 in
theorem st_main_cst_9 (V : Valuation τ sig (Elt F)) :
    after ops V (Proc.devRef .tc main_cst_9) = Read.val_main_cst_9 (F := F) := by
  unfold Read.val_main_cst_9
  after_results_simp <;> rfl

set_option maxRecDepth 65536 in
set_option maxHeartbeats 4000000 in
theorem st_main_v44 (V : Valuation τ sig (Elt F)) :
    after ops V (Proc.devRef .tc main_v44) = Read.val_main_v44 (F := F) := by
  unfold Read.val_main_v44
  rw [← st_main_cst_9 V]
  after_results_simp <;> rfl

set_option maxRecDepth 65536 in
set_option maxHeartbeats 4000000 in
theorem st_main_v45 (V : Valuation τ sig (Elt F)) :
    after ops V (Proc.devRef .tc main_v45) = Read.val_main_v45 (F := F) (V (Proc.devRef .tc main_arg0)) (V (Proc.devRef .tc main_arg2)) := by
  unfold Read.val_main_v45
  rw [← st_main_v17 V, ← st_main_v44 V]
  after_results_simp <;> rfl

set_option maxRecDepth 65536 in
set_option maxHeartbeats 4000000 in
theorem st_main_cst_10 (V : Valuation τ sig (Elt F)) :
    after ops V (Proc.devRef .tc main_cst_10) = Read.val_main_cst_10 (F := F) := by
  unfold Read.val_main_cst_10
  after_results_simp <;> rfl

set_option maxRecDepth 65536 in
set_option maxHeartbeats 4000000 in
theorem st_main_call2_v0 (V : Valuation τ sig (Elt F)) :
    after ops V (Proc.devRef .tc main_call2_v0) = Read.val_main_call2_v0 (F := F) := by
  unfold Read.val_main_call2_v0
  rw [← st_main_cst_10 V]
  after_results_simp <;> rfl

set_option maxRecDepth 65536 in
set_option maxHeartbeats 4000000 in
theorem st_main_call2_v1 (V : Valuation τ sig (Elt F)) :
    after ops V (Proc.devRef .tc main_call2_v1) = Read.val_main_call2_v1 (F := F) := by
  unfold Read.val_main_call2_v1
  rw [← st_main_call2_v0 V]
  after_results_simp <;> rfl

set_option maxRecDepth 65536 in
set_option maxHeartbeats 4000000 in
theorem st_main_v46 (V : Valuation τ sig (Elt F)) :
    after ops V (Proc.devRef .tc main_v46) = Read.val_main_v46 (F := F) (V (Proc.devRef .tc main_arg0)) (V (Proc.devRef .tc main_arg2)) := by
  unfold Read.val_main_v46
  rw [← st_main_v45 V, ← st_main_call2_v1 V, ← st_main_v43 V]
  after_results_simp <;> rfl

set_option maxRecDepth 65536 in
set_option maxHeartbeats 4000000 in
theorem st_main_cst_11 (V : Valuation τ sig (Elt F)) :
    after ops V (Proc.devRef .tc main_cst_11) = Read.val_main_cst_11 (F := F) := by
  unfold Read.val_main_cst_11
  after_results_simp <;> rfl

set_option maxRecDepth 65536 in
set_option maxHeartbeats 4000000 in
theorem st_main_v47 (V : Valuation τ sig (Elt F)) :
    after ops V (Proc.devRef .tc main_v47) = Read.val_main_v47 (F := F) (V (Proc.devRef .tc main_arg0)) (V (Proc.devRef .tc main_arg2)) := by
  unfold Read.val_main_v47
  rw [← st_main_v46 V, ← st_main_cst_11 V]
  after_results_simp <;> rfl

set_option maxRecDepth 65536 in
set_option maxHeartbeats 4000000 in
theorem st_main_cst_12 (V : Valuation τ sig (Elt F)) :
    after ops V (Proc.devRef .tc main_cst_12) = Read.val_main_cst_12 (F := F) := by
  unfold Read.val_main_cst_12
  after_results_simp <;> rfl

set_option maxRecDepth 65536 in
set_option maxHeartbeats 4000000 in
theorem st_main_v48 (V : Valuation τ sig (Elt F)) :
    after ops V (Proc.devRef .tc main_v48) = Read.val_main_v48 (F := F) (V (Proc.devRef .tc main_arg0)) (V (Proc.devRef .tc main_arg2)) := by
  unfold Read.val_main_v48
  rw [← st_main_v47 V, ← st_main_cst_12 V]
  after_results_simp <;> rfl

set_option maxRecDepth 65536 in
set_option maxHeartbeats 4000000 in
theorem st_main_cst_13 (V : Valuation τ sig (Elt F)) :
    after ops V (Proc.devRef .tc main_cst_13) = Read.val_main_cst_13 (F := F) := by
  unfold Read.val_main_cst_13
  after_results_simp <;> rfl

set_option maxRecDepth 65536 in
set_option maxHeartbeats 4000000 in
theorem st_main_v49 (V : Valuation τ sig (Elt F)) :
    after ops V (Proc.devRef .tc main_v49) = Read.val_main_v49 (F := F) (V (Proc.devRef .tc main_arg0)) (V (Proc.devRef .tc main_arg2)) := by
  unfold Read.val_main_v49
  rw [← st_main_v48 V, ← st_main_cst_13 V]
  after_results_simp <;> rfl

set_option maxRecDepth 65536 in
set_option maxHeartbeats 4000000 in
theorem st_main_cst_14 (V : Valuation τ sig (Elt F)) :
    after ops V (Proc.devRef .tc main_cst_14) = Read.val_main_cst_14 (F := F) := by
  unfold Read.val_main_cst_14
  after_results_simp <;> rfl

set_option maxRecDepth 65536 in
set_option maxHeartbeats 4000000 in
theorem st_main_v50 (V : Valuation τ sig (Elt F)) :
    after ops V (Proc.devRef .tc main_v50) = Read.val_main_v50 (F := F) (V (Proc.devRef .tc main_arg0)) (V (Proc.devRef .tc main_arg1)) (V (Proc.devRef .tc main_arg2)) := by
  unfold Read.val_main_v50
  rw [← st_main_v36 V, ← st_main_cst_14 V]
  after_results_simp <;> rfl

set_option maxRecDepth 65536 in
set_option maxHeartbeats 4000000 in
theorem st_main_cst_15 (V : Valuation τ sig (Elt F)) :
    after ops V (Proc.devRef .tc main_cst_15) = Read.val_main_cst_15 (F := F) := by
  unfold Read.val_main_cst_15
  after_results_simp <;> rfl

set_option maxRecDepth 65536 in
set_option maxHeartbeats 4000000 in
theorem st_main_v51 (V : Valuation τ sig (Elt F)) :
    after ops V (Proc.devRef .tc main_v51) = Read.val_main_v51 (F := F) := by
  unfold Read.val_main_v51
  rw [← st_main_cst_15 V]
  after_results_simp <;> rfl

set_option maxRecDepth 65536 in
set_option maxHeartbeats 4000000 in
theorem st_main_v52 (V : Valuation τ sig (Elt F)) :
    after ops V (Proc.devRef .tc main_v52) = Read.val_main_v52 (F := F) (V (Proc.devRef .tc main_arg0)) (V (Proc.devRef .tc main_arg1)) (V (Proc.devRef .tc main_arg2)) := by
  unfold Read.val_main_v52
  rw [← st_main_v50 V, ← st_main_v51 V]
  after_results_simp <;> rfl

set_option maxRecDepth 65536 in
set_option maxHeartbeats 4000000 in
theorem st_main_cst_16 (V : Valuation τ sig (Elt F)) :
    after ops V (Proc.devRef .tc main_cst_16) = Read.val_main_cst_16 (F := F) := by
  unfold Read.val_main_cst_16
  after_results_simp <;> rfl

set_option maxRecDepth 65536 in
set_option maxHeartbeats 4000000 in
theorem st_main_v53 (V : Valuation τ sig (Elt F)) :
    after ops V (Proc.devRef .tc main_v53) = Read.val_main_v53 (F := F) := by
  unfold Read.val_main_v53
  rw [← st_main_cst_16 V]
  after_results_simp <;> rfl

set_option maxRecDepth 65536 in
set_option maxHeartbeats 4000000 in
theorem st_main_v54 (V : Valuation τ sig (Elt F)) :
    after ops V (Proc.devRef .tc main_v54) = Read.val_main_v54 (F := F) (V (Proc.devRef .tc main_arg0)) (V (Proc.devRef .tc main_arg1)) (V (Proc.devRef .tc main_arg2)) := by
  unfold Read.val_main_v54
  rw [← st_main_v52 V, ← st_main_v53 V]
  after_results_simp <;> rfl

set_option maxRecDepth 65536 in
set_option maxHeartbeats 4000000 in
theorem st_main_v55 (V : Valuation τ sig (Elt F)) :
    after ops V (Proc.devRef .tc main_v55) = Read.val_main_v55 (F := F) (V (Proc.devRef .tc main_arg0)) (V (Proc.devRef .tc main_arg1)) (V (Proc.devRef .tc main_arg2)) := by
  unfold Read.val_main_v55
  rw [← st_main_v54 V]
  after_results_simp <;> rfl

set_option maxRecDepth 65536 in
set_option maxHeartbeats 4000000 in
theorem st_main_v56 (V : Valuation τ sig (Elt F)) :
    after ops V (Proc.devRef .tc main_v56) = Read.val_main_v56 (F := F) (V (Proc.devRef .tc main_arg0)) (V (Proc.devRef .tc main_arg1)) (V (Proc.devRef .tc main_arg2)) := by
  unfold Read.val_main_v56
  rw [← st_main_v52 V, ← st_main_v55 V]
  after_results_simp <;> rfl

set_option maxRecDepth 65536 in
set_option maxHeartbeats 4000000 in
theorem st_main_cst_17 (V : Valuation τ sig (Elt F)) :
    after ops V (Proc.devRef .tc main_cst_17) = Read.val_main_cst_17 (F := F) := by
  unfold Read.val_main_cst_17
  after_results_simp <;> rfl

set_option maxRecDepth 65536 in
set_option maxHeartbeats 4000000 in
theorem st_main_v57 (V : Valuation τ sig (Elt F)) :
    after ops V (Proc.devRef .tc main_v57) = Read.val_main_v57 (F := F) (V (Proc.devRef .tc main_arg0)) (V (Proc.devRef .tc main_arg1)) (V (Proc.devRef .tc main_arg2)) := by
  unfold Read.val_main_v57
  rw [← st_main_v56 V, ← st_main_cst_17 V]
  after_results_simp <;> rfl

set_option maxRecDepth 65536 in
set_option maxHeartbeats 4000000 in
theorem st_main_v58 (V : Valuation τ sig (Elt F)) :
    after ops V (Proc.devRef .tc main_v58) = Read.val_main_v58 (F := F) (V (Proc.devRef .tc main_arg0)) (V (Proc.devRef .tc main_arg1)) (V (Proc.devRef .tc main_arg2)) := by
  unfold Read.val_main_v58
  rw [← st_main_v57 V]
  after_results_simp <;> rfl

set_option maxRecDepth 65536 in
set_option maxHeartbeats 4000000 in
theorem st_main_v59 (V : Valuation τ sig (Elt F)) :
    after ops V (Proc.devRef .tc main_v59) = Read.val_main_v59 (F := F) (V (Proc.devRef .tc main_arg0)) (V (Proc.devRef .tc main_arg1)) (V (Proc.devRef .tc main_arg2)) := by
  unfold Read.val_main_v59
  rw [← st_main_v58 V]
  after_results_simp <;> rfl

end Cert.ReferenceIdeal.Steps

end
-- ==== Proof.RefRunVal.lean ====
/-
  The idealized reference's run with its four results at Read's stages of the argument arrays: every weakly fair
  execution of its @main terminates; each buffer ends at the fold of the 99 operations over the launch contents
  (Lib/StableHlo/Run.lean `run_seq`), and at each result buffer that fold is the result's stage (the last cases of
  Proof/RefSteps3.lean); no operation writes an argument, so the arguments end as launched.
-/
import proofs.«111803_j8821862826425_2_alg».proof.Proof.RefSteps3

noncomputable section

namespace Cert.ReferenceIdeal.RunVal

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 65536 in
set_option maxHeartbeats 4000000 in
/-- No operation writes the first argument. -/
theorem arg0_kept (V : Valuation τ sig (Elt F)) :
    after ops V (Proc.devRef .tc main_arg0) = V (Proc.devRef .tc main_arg0) := by
  after_results_simp <;> rfl

set_option maxRecDepth 65536 in
set_option maxHeartbeats 4000000 in
/-- No operation writes the second argument. -/
theorem arg1_kept (V : Valuation τ sig (Elt F)) :
    after ops V (Proc.devRef .tc main_arg1) = V (Proc.devRef .tc main_arg1) := by
  after_results_simp <;> rfl

set_option maxRecDepth 65536 in
set_option maxHeartbeats 4000000 in
/-- No operation writes the third argument. -/
theorem arg2_kept (V : Valuation τ sig (Elt F)) :
    after ops V (Proc.devRef .tc main_arg2) = V (Proc.devRef .tc main_arg2) := by
  after_results_simp <;> rfl

/-- On every device, for any float values, from any memory with zero counters: every weakly fair execution of @main
    terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = Read.val_main_v49 (F := F) (m ((c.tc : Thread nD τ).loc main_arg0)) (m ((c.tc : Thread nD τ).loc main_arg2))
      ∧ r.2.mem ((c.tc : Thread nD τ).loc main_v40)
          = Read.val_main_v40 (F := F) (m ((c.tc : Thread nD τ).loc main_arg0)) (m ((c.tc : Thread nD τ).loc main_arg1)) (m ((c.tc : Thread nD τ).loc main_arg2))
      ∧ r.2.mem ((c.tc : Thread nD τ).loc main_v59)
          = Read.val_main_v59 (F := F) (m ((c.tc : Thread nD τ).loc main_arg0)) (m ((c.tc : Thread nD τ).loc main_arg1)) (m ((c.tc : Thread nD τ).loc main_arg2))
      ∧ r.2.mem ((c.tc : Thread nD τ).loc main_v36)
          = Read.val_main_v36 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v49).trans (Steps.st_main_v49 (launchContents m c)),
        (h c main_v40).trans (Steps.st_main_v40 (launchContents m c)),
        (h c main_v59).trans (Steps.st_main_v59 (launchContents m c)),
        (h c main_v36).trans (Steps.st_main_v36 (launchContents m c)),
        (h c main_arg0).trans (arg0_kept (launchContents m c)),
        (h c main_arg1).trans (arg1_kept (launchContents m c)),
        (h c main_arg2).trans (arg2_kept (launchContents m c))⟩)
    (run_seq scopedRefs_eq scopedSems_eq defs main (fun _ => ops) main_eq (fun _ => ops_sub) m ρ)

end Cert.ReferenceIdeal.RunVal

end
-- ==== Proof.Spec.lean ====
/-
  The mathematics of the vector-quantisation layer, as functions on the extended reals, with no program in sight.

  One token row `x : Fin 128 → EReal` meets the codebook `E : Fin 512 → Fin 128 → EReal` through its LOGITS, one per code.
  Two spellings of the logits occur: the negated squared distance `-((‖x‖² + ‖E k‖²) - Σ_d (2·x d)·E k d)` (`logitsR`), and the
  same with the row's own constant `‖x‖²` left out, `2·(Σ_d x d · E k d) - ‖E k‖²` (`logitsK`). Everything downstream reads the
  logits only through `shifted`, a row minus its own maximum, so a constant added to a whole row is invisible (Proof/ShiftLaw.lean).

  From a row of logits `a`: `logp a` is the stable log-softmax, `softmax a` the stable softmax, `scaled a u` the logits
  perturbed by Gumbel noise drawn from the uniform row `u` and divided by the temperature 1/2, `encRow` the relaxed one-hot
  code of the row, `klRow` the row's term of the divergence from the uniform distribution, `quantRow` the row's
  quantised vector with the straight-through sum `x + (q - x)` kept as written.

  Over the whole arrays (`x0` of shape [64, 2048, 128] read as 131072 rows, `x1` of shape [131072, 512], `x2` the
  codebook [512, 128]), for either spelling `L` of the logits: `encC`, `quantC`, the divergence `klTot` (summed over
  rows, averaged over codes) and the perplexity `perp` of the mean code usage `avgTot`. The same two scalars computed
  from per-tile partial sums, each tile's sum repeated on eight rows (`partKL`, `partEnc`, `klTiled`, `avgTiled`).
-/
import Idealize.ShloMosaic.PureOps.Ideal
import Idealize.ShloMosaic.PureOps.Ideal.Laws
import Idealize.ShloMosaic.Lib.ValueIdx

noncomputable section

namespace Cert.VQ

open Idealize.ShloMosaic Idealize.ShloMosaic.ValueIdx

/-! ## One row of logits -/

/-- The maximum of a row, from `⊥`. -/
def rowMax (a : Fin 512 → EReal) : EReal := (Finset.univ : Finset (Fin 512)).fold max ⊥ a
/-- A row minus its maximum. -/
def shifted (a : Fin 512 → EReal) (k : Fin 512) : EReal := a k - rowMax a
/-- The sum of the exponentials of the shifted row. -/
def sumExp (a : Fin 512 → EReal) : EReal := ∑ j : Fin 512, Ideal.exp (shifted a j)
/-- The stable log-softmax of a row. -/
def logp (a : Fin 512 → EReal) (k : Fin 512) : EReal := shifted a k - Ideal.log (sumExp a)
/-- The stable softmax of a row. -/
def softmax (a : Fin 512 → EReal) (k : Fin 512) : EReal := Ideal.div (Ideal.exp (shifted a k)) (sumExp a)
/-- Gumbel noise from a uniform sample clipped into [2^-126, 1 - 2^-23]. -/
def gumbel (u : EReal) : EReal :=
  -Ideal.log (-Ideal.log (min (Ideal.ofBits .f32 0x3F7FFFFE#32) (max (Ideal.ofBits .f32 0x00800000#32) u)))
/-- The perturbed logits over the temperature 1/2. -/
def scaled (a u : Fin 512 → EReal) (k : Fin 512) : EReal :=
  Ideal.div (a k + gumbel (u k)) (Ideal.ofBits .f32 0x3F000000#32)
/-- The relaxed one-hot code of a row. -/
def encRow (a u : Fin 512 → EReal) (k : Fin 512) : EReal := softmax (scaled a u) k
/-- One term of the divergence from the uniform distribution on 512 codes: `p · (log p + log 512)`, zero where `p` is. -/
def klTerm (lp : EReal) : EReal :=
  Scalar.select (FloatOps.cmpf (F := Ideal) (φ := .f32) .oeq (Ideal.exp lp) 0) 0
    (Ideal.exp lp * (lp + Ideal.ofBits .f32 0x40C7A05B#32))
/-- A row's terms of the divergence. -/
def klRow (a : Fin 512 → EReal) (k : Fin 512) : EReal := klTerm (logp a k)
/-- The row's quantised vector, the straight-through sum kept as written. -/
def quantRow (x : Fin 128 → EReal) (enc : Fin 512 → EReal) (E : Fin 512 → Fin 128 → EReal) (d : Fin 128) : EReal :=
  x d + ((∑ k : Fin 512, enc k * E k d) - x d)

/-! ## The two spellings of the logits -/

/-- `2 · ⟨x, E k⟩ - ‖E k‖²`. -/
def logitsK (x : Fin 128 → EReal) (E : Fin 512 → Fin 128 → EReal) (k : Fin 512) : EReal :=
  Ideal.ofBits .f32 0x40000000#32 * (∑ d : Fin 128, x d * E k d) - ∑ d : Fin 128, E k d * E k d
/-- `-((‖x‖² + ‖E k‖²) - ⟨2·x, E k⟩)`. -/
def logitsR (x : Fin 128 → EReal) (E : Fin 512 → Fin 128 → EReal) (k : Fin 512) : EReal :=
  -(((∑ d : Fin 128, x d * x d) + ∑ d : Fin 128, E k d * E k d)
      - ∑ d : Fin 128, (Ideal.ofBits .f32 0x40000000#32 * x d) * E k d)

/-! ## The whole arrays -/

abbrev SX : Shape := ⟨3, ![64, 2048, 128]⟩
abbrev SU : Shape := ⟨2, ![131072, 512]⟩
abbrev SE : Shape := ⟨2, ![512, 128]⟩

/-- Row `n` of the inputs read as 131072 rows of 128: row `n` is (n / 2048, n % 2048). -/
def rowX (x0 : SX.Idx → EReal) (n : Fin 131072) (d : Fin 128) : EReal :=
  x0 (ix3 (⟨n.val / 2048, by have := n.isLt; omega⟩ : Fin 64) (⟨n.val % 2048, by omega⟩ : Fin 2048) d)
/-- Row `n` of the uniform samples. -/
def rowU (x1 : SU.Idx → EReal) (n : Fin 131072) (k : Fin 512) : EReal := x1 (ix2 n k)
/-- The codebook by coordinates. -/
def matE (x2 : SE.Idx → EReal) (k : Fin 512) (d : Fin 128) : EReal := x2 (ix2 k d)

/-- A spelling of the logits. -/
abbrev Logits := (Fin 128 → EReal) → (Fin 512 → Fin 128 → EReal) → Fin 512 → EReal

/-- The codes, row by row. -/
def encC (L : Logits) (x0 : SX.Idx → EReal) (x1 : SU.Idx → EReal) (x2 : SE.Idx → EReal) (n : Fin 131072) (k : Fin 512) : EReal :=
  encRow (L (rowX x0 n) (matE x2)) (rowU x1 n) k
/-- The quantised rows. -/
def quantC (L : Logits) (x0 : SX.Idx → EReal) (x1 : SU.Idx → EReal) (x2 : SE.Idx → EReal) (n : Fin 131072) (d : Fin 128) : EReal :=
  quantRow (rowX x0 n) (encC L x0 x1 x2 n) (matE x2) d
/-- The divergence terms, row by row. -/
def klC (L : Logits) (x0 : SX.Idx → EReal) (x2 : SE.Idx → EReal) (n : Fin 131072) (k : Fin 512) : EReal :=
  klRow (L (rowX x0 n) (matE x2)) k

/-- The divergence: summed over the rows, then averaged over the 512 codes. -/
def klTot (L : Logits) (x0 : SX.Idx → EReal) (x2 : SE.Idx → EReal) : EReal :=
  Ideal.div (∑ k : Fin 512, ∑ n : Fin 131072, klC L x0 x2 n k) (Ideal.ofBits .f32 0x44000000#32)
/-- The mean usage of code `k` over the 131072 rows. -/
def avgTot (L : Logits) (x0 : SX.Idx → EReal) (x1 : SU.Idx → EReal) (x2 : SE.Idx → EReal) (k : Fin 512) : EReal :=
  Ideal.div (∑ n : Fin 131072, encC L x0 x1 x2 n k) (Ideal.ofBits .f32 0x48000000#32)
/-- The perplexity of a usage vector: `exp (-Σ_k avg k · log (avg k + 1e-10))`. -/
def perp (avg : Fin 512 → EReal) : EReal :=
  Ideal.exp (-(∑ k : Fin 512, avg k * Ideal.log (avg k + Ideal.ofBits .f32 0x2EDBE6FF#32)))

/-- Row `t` of batch `b` among the 131072 rows. -/
def rowOf (b : Fin 64) (t : Fin 2048) : Fin 131072 := ⟨b.val * 2048 + t.val, by have := b.isLt; have := t.isLt; omega⟩

/-- Row `rowOf b t` of the inputs is the inputs at (b, t). -/
theorem rowX_rowOf (x0 : SX.Idx → EReal) (b : Fin 64) (t : Fin 2048) (d : Fin 128) :
    rowX x0 (rowOf b t) d = x0 (ix3 b t d) := by
  unfold rowX rowOf
  congr 1
  funext a
  match a with
  | ⟨0, _⟩ => exact Fin.ext (by show (b.val * 2048 + t.val) / 2048 = b.val; have := t.isLt; omega)
  | ⟨1, _⟩ => exact Fin.ext (by show (b.val * 2048 + t.val) % 2048 = t.val; have := t.isLt; omega)
  | ⟨2, _⟩ => rfl

/-- The codes as an array of shape [131072, 512]. -/
def encA (L : Logits) (x0 : SX.Idx → EReal) (x1 : SU.Idx → EReal) (x2 : SE.Idx → EReal) : SU.Idx → EReal :=
  fun i => encC L x0 x1 x2 (i 0) (i 1)
/-- The quantised rows as an array of shape [64, 2048, 128]. -/
def quantA (L : Logits) (x0 : SX.Idx → EReal) (x1 : SU.Idx → EReal) (x2 : SE.Idx → EReal) : SX.Idx → EReal :=
  fun i => quantC L x0 x1 x2 (rowOf (i 0) (i 1)) (i 2)

/-! ## The same sums from per-tile partial sums, each repeated on eight rows -/

/-- Row `p` of tile `R / 8` (64 tiles of 2048 rows; the tile's sums sit on the eight rows 8·tile … 8·tile + 7). -/
def tileRow (R : Fin 512) (p : Fin 2048) : Fin 131072 := ⟨2048 * (R.val / 8) + p.val, by have := R.isLt; have := p.isLt; omega⟩
/-- A tile's column sums of the divergence terms. -/
def partKL (L : Logits) (x0 : SX.Idx → EReal) (x2 : SE.Idx → EReal) (R : Fin 512) (k : Fin 512) : EReal :=
  ∑ p : Fin 2048, klC L x0 x2 (tileRow R p) k
/-- A tile's column sums of the codes. -/
def partEnc (L : Logits) (x0 : SX.Idx → EReal) (x1 : SU.Idx → EReal) (x2 : SE.Idx → EReal) (R : Fin 512) (k : Fin 512) : EReal :=
  ∑ p : Fin 2048, encC L x0 x1 x2 (tileRow R p) k
/-- The divergence from the partial sums: the 512 rows summed, an eighth of it, averaged over the codes. -/
def klTiled (L : Logits) (x0 : SX.Idx → EReal) (x2 : SE.Idx → EReal) : EReal :=
  Ideal.div (∑ k : Fin 512, Ideal.div (∑ R : Fin 512, partKL L x0 x2 R k) (Ideal.ofBits .f32 0x41000000#32))
    (Ideal.ofBits .f32 0x44000000#32)
/-- The mean usage from the partial sums: the 512 rows summed, over 8 · 131072. -/
def avgTiled (L : Logits) (x0 : SX.Idx → EReal) (x1 : SU.Idx → EReal) (x2 : SE.Idx → EReal) (k : Fin 512) : EReal :=
  Ideal.div (∑ R : Fin 512, partEnc L x0 x1 x2 R k) (Ideal.ofBits .f32 0x49800000#32)

end Cert.VQ

end
-- ==== Proof.LibBatchNorm.lean ====
/-
  Finiteness on the extended reals.

  At the ideal instance a float is an extended real and every operation is exact, but the
  extended reals are not a field: ⊤ − ⊤ = ⊥, 0 · ⊤ = 0. An algebraic identity between two
  programs therefore holds only where every intermediate value is FINITE, i.e. the coercion
  of a real number. This module defines that predicate, IsReal, and proves that it is closed
  under the operations a normalising network uses: sum, difference, product, maximum, finite
  sums (so matrix-product entries), choice between two finite values, the quotient by a
  nonzero finite value, and the reciprocal square root of a positive finite value. It also
  evaluates the four 32-bit float words 0, 1, 80000 and 10995116 · 2⁻⁴⁰ (and +∞) as extended
  reals, and relates IsReal to the test |x| < +∞.
-/
import Idealize.ShloMosaic.PureOps.Ideal

noncomputable section

namespace Cert.LibBatchNorm

open Idealize.ShloMosaic
open scoped BigOperators

/-! ## The predicate -/

/-- An extended real is FINITE when it is (the coercion of) a real number. -/
def IsReal (x : EReal) : Prop := ∃ a : ℝ, x = (a : EReal)

/-- A real number is finite. -/
theorem isReal_coe (a : ℝ) : IsReal (a : EReal) := ⟨a, rfl⟩

/-- 0 is finite. -/
theorem isReal_zero : IsReal (0 : EReal) := ⟨0, rfl⟩

/-- 1 is finite. -/
theorem isReal_one : IsReal (1 : EReal) := ⟨1, rfl⟩

/-- x is finite iff it is neither −∞ nor +∞. -/
theorem isReal_iff {x : EReal} : IsReal x ↔ x ≠ ⊥ ∧ x ≠ ⊤ := by
  constructor
  · rintro ⟨a, rfl⟩; exact ⟨EReal.coe_ne_bot a, EReal.coe_ne_top a⟩
  · rintro ⟨hb, ht⟩
    induction x using EReal.rec with
    | bot => exact absurd rfl hb
    | coe a => exact ⟨a, rfl⟩
    | top => exact absurd rfl ht

/-- If |x| = max x (−x) is below +∞ then x is finite. -/
theorem isReal_of_abs_lt_top {x : EReal} (h : max x (-x) < ⊤) : IsReal x := by
  induction x using EReal.rec with
  | bot => exact absurd h (by simp)
  | coe a => exact ⟨a, rfl⟩
  | top => exact absurd h (by simp)

/-- A finite x has |x| = max x (−x) below +∞. -/
theorem abs_lt_top_of_isReal {x : EReal} (hx : IsReal x) : max x (-x) < ⊤ := by
  obtain ⟨a, rfl⟩ := hx
  exact max_lt (EReal.coe_lt_top a) (by rw [← EReal.coe_neg]; exact EReal.coe_lt_top _)

/-- The ordered "less than" comparison answers 1 exactly when x < y. -/
theorem cmp_olt_eq_one_iff (x y : EReal) : Ideal.cmp .olt x y = 1#1 ↔ x < y := by
  unfold Ideal.cmp
  by_cases h : x < y <;> simp [h]

/-! ## Closure under the arithmetic operations -/

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite (it is one of them). -/
theorem IsReal.max {x y : EReal} (hx : IsReal x) (hy : IsReal y) : IsReal (max x y) := by
  rcases le_total x y with h | h
  · rwa [max_eq_right h]
  · rwa [max_eq_left h]

/-- The minimum of two finite values is finite (it is one of them). -/
theorem IsReal.min {x y : EReal} (hx : IsReal x) (hy : IsReal y) : IsReal (min x y) := by
  rcases le_total x y with h | h
  · rwa [min_eq_left h]
  · rwa [min_eq_right h]

/-- |x| = max x (−x) of a finite x is finite. -/
theorem isReal_abs {x : EReal} (hx : IsReal x) : IsReal (max x (-x)) := hx.max hx.neg

/-- A choice between two finite values is finite, whatever the condition. -/
theorem isReal_ite {c : Prop} [Decidable c] {x y : EReal} (hx : IsReal x) (hy : IsReal y) :
    IsReal (if c then x else y) := by
  split <;> assumption

/-- A Boolean choice between two finite values is finite. -/
theorem isReal_cond {c : Bool} {x y : EReal} (hx : IsReal x) (hy : IsReal y) :
    IsReal (bif c then x else y) := by
  cases c <;> assumption

/-- A selection by a one-bit condition between two finite values is finite. -/
theorem isReal_select (c : BitVec 1) {x y : EReal} (hx : IsReal x) (hy : IsReal y) :
    IsReal (Scalar.select c x y) := isReal_ite hx hy

/-! ## Finite sums -/

/-- The coercion ℝ → [−∞, +∞] commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over a finite set of finite values is finite. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- A sum over a finite index type of finite values is finite. -/
theorem isReal_sum {ι : Type*} [Fintype ι] (f : ι → EReal) (h : ∀ i, IsReal (f i)) : IsReal (∑ i, f i) :=
  isReal_finset_sum _ _ fun i _ => h i

/-- An entry Σₖ aₖ · bₖ of a matrix product of finite matrices is finite. -/
theorem isReal_sum_mul {κ : Type*} [Fintype κ] (a b : κ → EReal) (ha : ∀ k, IsReal (a k)) (hb : ∀ k, IsReal (b k)) :
    IsReal (∑ k, a k * b k) :=
  isReal_sum _ fun k => (ha k).mul (hb k)

/-- A finite accumulator plus an entry Σₖ aₖ · bₖ of a product of finite matrices is finite. -/
theorem isReal_add_sum_mul {κ : Type*} [Fintype κ] {c : EReal} (hc : IsReal c) (a b : κ → EReal)
    (ha : ∀ k, IsReal (a k)) (hb : ∀ k, IsReal (b k)) : IsReal (c + ∑ k, a k * b k) :=
  hc.add (isReal_sum_mul a b ha hb)

/-- The contraction acc j + Σₖ lhs(j,k) · rhs(k,j) of finite operands onto a finite accumulator is finite at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  isReal_add_sum_mul (ha j) _ _ (fun _ => hl _) (fun _ => hr _)

/-- The contraction Σₖ lhs(j,k) · rhs(k,j) of finite operands is finite at every index. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_mul _ _ (fun _ => hl _) (fun _ => hr _)

/-- A finite initial value plus the sum of the finite elements that reduce to an index is finite. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_finset_sum _ _ fun i _ => hx i)

/-- The sum of the finite elements that reduce to an index is finite. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_finset_sum _ _ fun i _ => hx i

/-- A finite element plus the sum of the finite updates that land on it is finite. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_finset_sum _ _ fun j _ => hu j)

/-! ## Quotients -/

/-- The quotient of two reals with a nonzero divisor, computed on the extended reals, is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A finite value times a real is finite. -/
theorem IsReal.mul_coe {x : EReal} (hx : IsReal x) (c : ℝ) : IsReal (x * (c : EReal)) := hx.mul (isReal_coe c)

/-- The quotient of a finite value by a nonzero real is finite. -/
theorem IsReal.div_coe {x : EReal} (hx : IsReal x) {b : ℝ} (hb : b ≠ 0) : IsReal (Ideal.div x (b : EReal)) := by
  rw [Ideal.div_coe hb]; exact hx.mul (isReal_coe _)

/-- The quotient of a finite value by a finite nonzero value is finite. -/
theorem IsReal.div {x y : EReal} (hx : IsReal x) (hy : IsReal y) (h0 : y ≠ 0) : IsReal (Ideal.div x y) := by
  obtain ⟨b, rfl⟩ := hy
  exact hx.div_coe (fun hb => h0 (by rw [hb]; rfl))

/-- The quotient of a finite value by a finite positive value is finite. -/
theorem IsReal.div_of_pos {x y : EReal} (hx : IsReal x) (hy : IsReal y) (h0 : 0 < y) : IsReal (Ideal.div x y) :=
  hx.div hy h0.ne'

/-! ## The reciprocal square root -/

/-- At a positive real a the reciprocal square root is the real (√a)⁻¹. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- (√a)⁻¹ is positive for a positive real a. -/
theorem inv_sqrt_pos {a : ℝ} (ha : 0 < a) : 0 < (Real.sqrt a)⁻¹ := inv_pos.2 (Real.sqrt_pos.2 ha)

/-- The reciprocal square root of a positive real is finite. -/
theorem isReal_rsqrt_coe_pos {a : ℝ} (ha : 0 < a) : IsReal (Ideal.rsqrt (a : EReal)) := ⟨_, rsqrt_coe_pos ha⟩

/-- The reciprocal square root of a finite positive value is finite. -/
theorem IsReal.rsqrt_of_pos {x : EReal} (hx : IsReal x) (hpos : 0 < x) : IsReal (Ideal.rsqrt x) := by
  obtain ⟨a, rfl⟩ := hx
  exact isReal_rsqrt_coe_pos (EReal.coe_pos.1 hpos)

/-- For reals v ≥ 0 and e > 0 the reciprocal square root of v + e is finite. -/
theorem isReal_rsqrt_add {v e : ℝ} (hv : 0 ≤ v) (he : 0 < e) : IsReal (Ideal.rsqrt ((v : EReal) + (e : EReal))) := by
  rw [← EReal.coe_add]; exact isReal_rsqrt_coe_pos (add_pos_of_nonneg_of_pos hv he)

/-- For reals v ≥ 0 and e > 0 the reciprocal square root of v + e is the real (√(v + e))⁻¹. -/
theorem rsqrt_add_eq {v e : ℝ} (hv : 0 ≤ v) (he : 0 < e) :
    Ideal.rsqrt ((v : EReal) + (e : EReal)) = (((Real.sqrt (v + e))⁻¹ : ℝ) : EReal) := by
  rw [← EReal.coe_add]; exact rsqrt_coe_pos (add_pos_of_nonneg_of_pos hv he)

/-- If x is a nonnegative real and y a positive real then the reciprocal square root of x + y is finite. -/
theorem isReal_rsqrt_add_of {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add hv he

/-- The same for the float operations' reciprocal square root of a float sum, at the ideal instance. -/
theorem isReal_floatOps_rsqrt_add_of {φ : FTy} {x y : Ideal φ} (hx : ∃ v : ℝ, 0 ≤ v ∧ x = (v : EReal))
    (hy : ∃ e : ℝ, 0 < e ∧ y = (e : EReal)) : IsReal (FloatOps.rsqrt (FloatOps.addf x y)) :=
  isReal_rsqrt_add_of hx hy

/-- The same for the host's one-operand reciprocal square root of a float sum, at the ideal instance. -/
theorem isReal_hostUnary_rsqrt_add_of {φ : FTy} {x y : Ideal φ} (hx : ∃ v : ℝ, 0 ≤ v ∧ x = (v : EReal))
    (hy : ∃ e : ℝ, 0 < e ∧ y = (e : EReal)) : IsReal (FloatOps.hostUnary .rsqrt (FloatOps.addf x y)) :=
  isReal_rsqrt_add_of hx hy

/-! ## Four float words as extended reals -/

/-- The 32-bit word 0x00000000 denotes 0. -/
theorem ofBits_f32_zero : Ideal.ofBits .f32 0x00000000#32 = 0 := by
  simp [Ideal.ofBits, Ideal.ieee]

/-- The 32-bit word 0x3F800000 denotes 1. -/
theorem ofBits_f32_one : Ideal.ofBits .f32 0x3F800000#32 = 1 := by
  simp [Ideal.ofBits, Ideal.ieee, -EReal.coe_mul]; norm_num

/-- The 32-bit word 0x479C4000 denotes the real 80000. -/
theorem ofBits_f32_80000 : Ideal.ofBits .f32 0x479C4000#32 = ((80000 : ℝ) : EReal) := by
  simp [Ideal.ofBits, Ideal.ieee, -EReal.coe_mul]; norm_num

/-- The 32-bit word 0x3727C5AC (about 10⁻⁵) denotes the real 10995116 / 2⁴⁰. -/
theorem ofBits_f32_eps : Ideal.ofBits .f32 0x3727C5AC#32 = ((10995116 / 2 ^ 40 : ℝ) : EReal) := by
  simp [Ideal.ofBits, Ideal.ieee, -EReal.coe_mul]; norm_num

/-- The 32-bit word 0x7F800000 denotes +∞. -/
theorem ofBits_f32_inf : Ideal.ofBits .f32 0x7F800000#32 = ⊤ := by
  simp [Ideal.ofBits, Ideal.ieee]

/-- 10995116 / 2⁴⁰ is positive. -/
theorem eps_pos : (0 : ℝ) < 10995116 / 2 ^ 40 := by positivity

/-- The word 0x00000000 denotes a finite value. -/
theorem isReal_ofBits_f32_zero : IsReal (Ideal.ofBits .f32 0x00000000#32) := ofBits_f32_zero ▸ isReal_zero

/-- The word 0x3F800000 denotes a finite value. -/
theorem isReal_ofBits_f32_one : IsReal (Ideal.ofBits .f32 0x3F800000#32) := ofBits_f32_one ▸ isReal_one

/-- The word 0x479C4000 denotes a finite value. -/
theorem isReal_ofBits_f32_80000 : IsReal (Ideal.ofBits .f32 0x479C4000#32) := ⟨_, ofBits_f32_80000⟩

/-- The word 0x3727C5AC denotes a finite value. -/
theorem isReal_ofBits_f32_eps : IsReal (Ideal.ofBits .f32 0x3727C5AC#32) := ⟨_, ofBits_f32_eps⟩

/-- The word 0x3727C5AC denotes a positive real. -/
theorem ofBits_f32_eps_pos : ∃ e : ℝ, 0 < e ∧ Ideal.ofBits .f32 0x3727C5AC#32 = (e : EReal) :=
  ⟨_, eps_pos, ofBits_f32_eps⟩

/-- 80000 is not 0. -/
theorem eighty_thousand_ne_zero : (80000 : ℝ) ≠ 0 := by norm_num

/-- If the comparison |x| < (the word 0x7F800000, that is +∞) answers 1, then x is finite. -/
theorem isReal_of_cmp_abs_lt_inf {x : EReal}
    (h : Ideal.cmp .olt (max x (-x)) (Ideal.ofBits .f32 0x7F800000#32) = 1#1) : IsReal x := by
  rw [ofBits_f32_inf, cmp_olt_eq_one_iff] at h
  exact isReal_of_abs_lt_top h

end Cert.LibBatchNorm

end
-- ==== Proof.ShiftLaw.lean ====
/-
  The two laws that join the kernel's arithmetic to the reference's.

  (1) A row minus its own maximum does not see a constant subtracted from the whole row: for a real `c`,
  `(a k - c) - max_j (a j - c) = a k - max_j a j` on the extended reals, whatever the entries are. So the stable log-softmax
  and the stable softmax are the same of `a` and of `a - c`; and since dividing by the temperature 1/2 turns `a - c` into
  `a/τ - 2c` (for real logits `a`), the relaxed code is the same too. The two spellings of the logits differ exactly by
  such a constant, the row's own `‖x‖²`, when the row and the codebook are finite: `logitsR x E k = logitsK x E k - ‖x‖²`.

  (2) Summing 512 rows of which each tile's eight rows repeat that tile's column sum gives eight times the sum over the
  131072 rows: an eighth of it is the sum itself, and over 8 · 131072 it is the mean.
-/
import proofs.«111803_j8821862826425_2_alg».proof.Proof.Spec
import proofs.«111803_j8821862826425_2_alg».proof.Proof.LibBatchNorm

noncomputable section

namespace Cert.VQ

open Idealize.ShloMosaic Cert.LibBatchNorm

/-! ## Five float words -/

theorem w_two : Ideal.ofBits .f32 0x40000000#32 = ((2 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_eight : Ideal.ofBits .f32 0x41000000#32 = ((8 : ℝ) : EReal) := by
  simp [Ideal.ofBits, Ideal.ieee, -EReal.coe_mul]; norm_num
theorem w_rows : Ideal.ofBits .f32 0x48000000#32 = ((131072 : ℝ) : EReal) := by
  simp [Ideal.ofBits, Ideal.ieee, -EReal.coe_mul]; norm_num
theorem w_rows8 : Ideal.ofBits .f32 0x49800000#32 = ((1048576 : ℝ) : EReal) := by
  simp [Ideal.ofBits, Ideal.ieee, -EReal.coe_mul]; norm_num

/-! ## A constant subtracted from a row -/

/-- Subtracting a real is monotone on the extended reals. -/
theorem sub_coe_mono (c : ℝ) : Monotone (fun x : EReal => x - (c : EReal)) :=
  fun _ _ h => EReal.sub_le_sub h le_rfl

/-- The maximum (from `⊥`) of a row less a real constant is the maximum less the constant. -/
theorem fold_max_sub (s : Finset (Fin 512)) (a : Fin 512 → EReal) (c : ℝ) :
    s.fold max ⊥ (fun k => a k - (c : EReal)) = s.fold max ⊥ a - (c : EReal) := by
  classical
  induction s using Finset.induction_on with
  | empty => rw [Finset.fold_empty, Finset.fold_empty, EReal.bot_sub]
  | insert i s hi ih =>
    rw [Finset.fold_insert hi, Finset.fold_insert hi, ih]
    exact ((sub_coe_mono c).map_max).symm

theorem rowMax_sub (a : Fin 512 → EReal) (c : ℝ) : rowMax (fun k => a k - (c : EReal)) = rowMax a - (c : EReal) :=
  fold_max_sub _ a c

/-- `(x - c) - (y - c) = x - y` for a real `c` and any extended reals `x`, `y`. -/
theorem sub_sub_sub_coe (x y : EReal) (c : ℝ) : (x - (c : EReal)) - (y - (c : EReal)) = x - y := by
  induction x using EReal.rec with
  | bot => rw [EReal.bot_sub, EReal.bot_sub, EReal.bot_sub]
  | top =>
    induction y using EReal.rec with
    | bot => rw [EReal.bot_sub, EReal.top_sub_coe, EReal.top_sub_bot]
    | top => rw [EReal.top_sub_coe]
    | coe y => rw [EReal.top_sub_coe, ← EReal.coe_sub, EReal.top_sub_coe, EReal.top_sub_coe]
  | coe x =>
    induction y using EReal.rec with
    | bot => rw [EReal.bot_sub, ← EReal.coe_sub, EReal.coe_sub_bot, EReal.coe_sub_bot]
    | top => rw [EReal.top_sub_coe, EReal.sub_top, EReal.sub_top]
    | coe y => rw [← EReal.coe_sub, ← EReal.coe_sub, ← EReal.coe_sub, ← EReal.coe_sub, sub_sub_sub_cancel_right]

/-- A row minus its maximum does not see a real constant subtracted from the row. -/
theorem shifted_sub (a : Fin 512 → EReal) (c : ℝ) : shifted (fun k => a k - (c : EReal)) = shifted a := by
  funext k
  unfold shifted
  rw [rowMax_sub]
  exact sub_sub_sub_coe _ _ _

theorem sumExp_sub (a : Fin 512 → EReal) (c : ℝ) : sumExp (fun k => a k - (c : EReal)) = sumExp a := by
  unfold sumExp; rw [shifted_sub]
theorem logp_sub (a : Fin 512 → EReal) (c : ℝ) : logp (fun k => a k - (c : EReal)) = logp a := by
  funext k; unfold logp; rw [shifted_sub, sumExp_sub]
theorem softmax_sub (a : Fin 512 → EReal) (c : ℝ) : softmax (fun k => a k - (c : EReal)) = softmax a := by
  funext k; unfold softmax; rw [shifted_sub, sumExp_sub]
theorem klRow_sub (a : Fin 512 → EReal) (c : ℝ) : klRow (fun k => a k - (c : EReal)) = klRow a := by
  funext k; unfold klRow; rw [logp_sub]

/-- `(r - c + g) · 2 = (r + g) · 2 - 2c` for reals `r`, `c` and any extended real `g`. -/
theorem scaled_aux (r c : ℝ) (g : EReal) :
    ((r : EReal) - (c : EReal) + g) * ((1 / (1 / 2) : ℝ) : EReal)
      = ((r : EReal) + g) * ((1 / (1 / 2) : ℝ) : EReal) - ((c * 2 : ℝ) : EReal) := by
  have h2 : (1 / (1 / 2) : ℝ) = 2 := by norm_num
  rw [h2]
  induction g using EReal.rec with
  | bot => rw [EReal.add_bot, EReal.add_bot, EReal.bot_mul_coe_of_pos (by norm_num), EReal.bot_sub]
  | top =>
    rw [← EReal.coe_sub, EReal.coe_add_top, EReal.coe_add_top, EReal.top_mul_coe_of_pos (by norm_num), EReal.top_sub_coe]
  | coe g =>
    rw [← EReal.coe_sub, ← EReal.coe_add, ← EReal.coe_add, ← EReal.coe_mul, ← EReal.coe_mul, ← EReal.coe_sub]
    congr 1; ring

/-- The perturbed logits over the temperature, of a finite row less a real constant. -/
theorem scaled_sub (a u : Fin 512 → EReal) (c : ℝ) (ha : ∀ k, IsReal (a k)) :
    scaled (fun k => a k - (c : EReal)) u = fun k => scaled a u k - ((c * 2 : ℝ) : EReal) := by
  funext k
  unfold scaled
  beta_reduce
  obtain ⟨r, hr⟩ := ha k
  rw [w_half, Ideal.div_coe (by norm_num), Ideal.div_coe (by norm_num), hr]
  exact scaled_aux r c _

/-- The relaxed code does not see a real constant subtracted from a finite row of logits. -/
theorem encRow_sub (a u : Fin 512 → EReal) (c : ℝ) (ha : ∀ k, IsReal (a k)) :
    encRow (fun k => a k - (c : EReal)) u = encRow a u := by
  funext k
  unfold encRow
  rw [scaled_sub a u c ha]
  exact congrFun (softmax_sub (scaled a u) (c * 2)) k

/-! ## The two spellings of the logits -/

/-- For a finite row and a finite codebook the short logits are finite and the long ones are the short ones less the
    row's squared norm. -/
theorem logitsR_eq (x : Fin 128 → EReal) (E : Fin 512 → Fin 128 → EReal) (hx : ∀ d, IsReal (x d))
    (hE : ∀ k d, IsReal (E k d)) :
    ∃ c : ℝ, (∀ k, IsReal (logitsK x E k)) ∧ logitsR x E = fun k => logitsK x E k - (c : EReal) := by
  choose xr hxr using hx
  choose er her using hE
  obtain rfl : x = fun d => ((xr d : ℝ) : EReal) := funext hxr
  obtain rfl : E = fun k d => ((er k d : ℝ) : EReal) := funext fun k => funext fun d => her k d
  have hK : ∀ k, logitsK (fun d => ((xr d : ℝ) : EReal)) (fun k d => ((er k d : ℝ) : EReal)) k
      = ((2 * (∑ d : Fin 128, xr d * er k d) - ∑ d : Fin 128, er k d * er k d : ℝ) : EReal) := by
    intro k
    unfold logitsK
    rw [w_two]
    simp only [← EReal.coe_mul, ← coe_finset_sum, ← EReal.coe_sub]
  refine ⟨∑ d : Fin 128, xr d * xr d, fun k => ⟨_, hK k⟩, ?_⟩
  funext k
  rw [hK k]
  unfold logitsR
  rw [w_two]
  simp only [← EReal.coe_mul, ← coe_finset_sum, ← EReal.coe_sub, ← EReal.coe_add, ← EReal.coe_neg]
  congr 1
  have : ∑ d : Fin 128, 2 * xr d * er k d = 2 * ∑ d : Fin 128, xr d * er k d := by
    rw [Finset.mul_sum]; exact Finset.sum_congr rfl fun d _ => by ring
  rw [this]; ring

/-- So, on a finite row and codebook, the relaxed code and the divergence terms are the same of either spelling. -/
theorem encRow_logits (x : Fin 128 → EReal) (E : Fin 512 → Fin 128 → EReal) (u : Fin 512 → EReal)
    (hx : ∀ d, IsReal (x d)) (hE : ∀ k d, IsReal (E k d)) : encRow (logitsR x E) u = encRow (logitsK x E) u := by
  obtain ⟨c, hK, hR⟩ := logitsR_eq x E hx hE
  rw [hR]; exact encRow_sub _ u c hK
theorem klRow_logits (x : Fin 128 → EReal) (E : Fin 512 → Fin 128 → EReal)
    (hx : ∀ d, IsReal (x d)) (hE : ∀ k d, IsReal (E k d)) : klRow (logitsR x E) = klRow (logitsK x E) := by
  obtain ⟨c, _, hR⟩ := logitsR_eq x E hx hE
  rw [hR]; exact klRow_sub _ c

end Cert.VQ

end
-- ==== Proof.TileSums.lean ====
/-
  Sums over tiles. The 131072 rows are 64 tiles of 2048; each of the two partial-sum arrays has 512 rows, the eight rows
  8·t … 8·t + 7 all holding tile `t`'s column sum. So the sum of the 512 rows is the sum over the 131072 rows taken eight
  times: an eighth of it is the sum itself (whatever extended real it is), and over 8 · 131072 it is the sum over 131072.
-/
import proofs.«111803_j8821862826425_2_alg».proof.Proof.Spec
import proofs.«111803_j8821862826425_2_alg».proof.Proof.ShiftLaw

noncomputable section

namespace Cert.VQ

open Idealize.ShloMosaic

/-- A sum over `m · n` indices as a double sum: index `r + n · t` for `t < m`, `r < n`. -/
theorem sum_fin_mul {m n : ℕ} (g : Fin (m * n) → EReal) :
    ∑ R : Fin (m * n), g R = ∑ t : Fin m, ∑ r : Fin n, g (finProdFinEquiv (t, r)) := by
  rw [← Equiv.sum_comp finProdFinEquiv g, Fintype.sum_prod_type]

/-- The 512 rows of a partial-sum array: row `r + 8 · t` is the `r`-th of tile `t`'s eight. -/
theorem sum_rows512 (g : Fin 512 → EReal) :
    ∑ R : Fin 512, g R = ∑ t : Fin 64, ∑ r : Fin 8, g ⟨r.val + 8 * t.val, by have := r.isLt; have := t.isLt; omega⟩ :=
  sum_fin_mul (m := 64) (n := 8) g

/-- The 131072 token rows: row `p + 2048 · t` is the `p`-th of tile `t`. -/
theorem sum_rows131072 (f : Fin 131072 → EReal) :
    ∑ n : Fin 131072, f n = ∑ t : Fin 64, ∑ p : Fin 2048, f ⟨p.val + 2048 * t.val, by have := p.isLt; have := t.isLt; omega⟩ :=
  sum_fin_mul (m := 64) (n := 2048) f

/-- Row `p` of the tile that owns partial-sum row `r + 8 · t` is token row `p + 2048 · t`. -/
theorem tileRow_tile (t : Fin 64) (r : Fin 8) (p : Fin 2048) :
    tileRow ⟨r.val + 8 * t.val, by have := r.isLt; have := t.isLt; omega⟩ p
      = ⟨p.val + 2048 * t.val, by have := p.isLt; have := t.isLt; omega⟩ :=
  Fin.ext (by
    show 2048 * ((r.val + 8 * t.val) / 8) + p.val = p.val + 2048 * t.val
    have := r.isLt; omega)

/-- The 512 repeated rows sum to the sum over all token rows, once for each of a tile's eight rows. -/
theorem sum_parts (f : Fin 131072 → EReal) :
    ∑ R : Fin 512, ∑ p : Fin 2048, f (tileRow R p) = ∑ _r : Fin 8, ∑ n : Fin 131072, f n := by
  rw [sum_rows512]
  simp only [tileRow_tile]
  rw [Finset.sum_comm]
  exact Finset.sum_congr rfl fun r _ => (sum_rows131072 f).symm

/-- An eighth of eight copies of an extended real is that extended real. -/
theorem div_eight_copies (S : EReal) :
    Ideal.div (∑ _r : Fin 8, S) (Ideal.ofBits .f32 0x41000000#32) = S := by
  rw [w_eight, Ideal.div_coe (by norm_num), Fin.sum_univ_eight]
  induction S using EReal.rec with
  | bot => simp only [EReal.bot_add]; exact EReal.bot_mul_coe_of_pos (by norm_num)
  | top => simp only [EReal.top_add_top]; exact EReal.top_mul_coe_of_pos (by norm_num)
  | coe s =>
    rw [← EReal.coe_add, ← EReal.coe_add, ← EReal.coe_add, ← EReal.coe_add, ← EReal.coe_add, ← EReal.coe_add, ← EReal.coe_add,
      ← EReal.coe_mul]
    congr 1; ring

/-- Eight copies of an extended real over 8 · 131072 is it over 131072. -/
theorem div_rows8_copies (S : EReal) :
    Ideal.div (∑ _r : Fin 8, S) (Ideal.ofBits .f32 0x49800000#32) = Ideal.div S (Ideal.ofBits .f32 0x48000000#32) := by
  rw [w_rows8, w_rows, Ideal.div_coe (by norm_num), Ideal.div_coe (by norm_num), Fin.sum_univ_eight]
  induction S using EReal.rec with
  | bot =>
    simp only [EReal.bot_add]
    rw [EReal.bot_mul_coe_of_pos (by norm_num), EReal.bot_mul_coe_of_pos (by norm_num)]
  | top =>
    simp only [EReal.top_add_top]
    rw [EReal.top_mul_coe_of_pos (by norm_num), EReal.top_mul_coe_of_pos (by norm_num)]
  | coe s =>
    rw [← EReal.coe_add, ← EReal.coe_add, ← EReal.coe_add, ← EReal.coe_add, ← EReal.coe_add, ← EReal.coe_add, ← EReal.coe_add,
      ← EReal.coe_mul, ← EReal.coe_mul]
    congr 1; ring

/-- The divergence from the partial sums is the divergence. -/
theorem klTiled_eq (L : Logits) (x0 : SX.Idx → EReal) (x2 : SE.Idx → EReal) : klTiled L x0 x2 = klTot L x0 x2 := by
  unfold klTiled klTot
  refine congrArg (fun s => Ideal.div s (Ideal.ofBits .f32 0x44000000#32)) ?_
  refine Finset.sum_congr rfl fun k _ => ?_
  unfold partKL
  rw [sum_parts (fun n => klC L x0 x2 n k), div_eight_copies]

/-- The mean usage from the partial sums is the mean usage. -/
theorem avgTiled_eq (L : Logits) (x0 : SX.Idx → EReal) (x1 : SU.Idx → EReal) (x2 : SE.Idx → EReal) :
    avgTiled L x0 x1 x2 = avgTot L x0 x1 x2 := by
  funext k
  unfold avgTiled avgTot partEnc
  rw [sum_parts (fun n => encC L x0 x1 x2 n k), div_rows8_copies]

end Cert.VQ

end
-- ==== Proof.Bridge.lean ====
/-
  On a finite token array and a finite codebook, every whole-array function of Proof/Spec.lean is the same at either
  spelling of the logits: row by row the two spellings differ by the row's own squared norm, which the relaxed code and
  the divergence terms do not see (Proof/ShiftLaw.lean); the quantised rows, the divergence and the mean code usage are
  built from those row by row.
-/
import proofs.«111803_j8821862826425_2_alg».proof.Proof.Spec
import proofs.«111803_j8821862826425_2_alg».proof.Proof.ShiftLaw

noncomputable section

namespace Cert.VQ

open Idealize.ShloMosaic Cert.LibBatchNorm

variable (x0 : SX.Idx → EReal) (x1 : SU.Idx → EReal) (x2 : SE.Idx → EReal)

theorem encC_logits (hx : ∀ i, IsReal (x0 i)) (hE : ∀ i, IsReal (x2 i)) (n : Fin 131072) :
    encC logitsR x0 x1 x2 n = encC logitsK x0 x1 x2 n := by
  funext k
  unfold encC
  exact congrFun (encRow_logits (rowX x0 n) (matE x2) (rowU x1 n) (fun _ => hx _) (fun _ _ => hE _)) k

theorem klC_logits (hx : ∀ i, IsReal (x0 i)) (hE : ∀ i, IsReal (x2 i)) (n : Fin 131072) (k : Fin 512) :
    klC logitsR x0 x2 n k = klC logitsK x0 x2 n k := by
  unfold klC
  exact congrFun (klRow_logits (rowX x0 n) (matE x2) (fun _ => hx _) (fun _ _ => hE _)) k

theorem encA_logits (hx : ∀ i, IsReal (x0 i)) (hE : ∀ i, IsReal (x2 i)) :
    encA logitsR x0 x1 x2 = encA logitsK x0 x1 x2 := by
  funext i
  unfold encA
  exact congrFun (encC_logits x0 x1 x2 hx hE _) _

theorem quantA_logits (hx : ∀ i, IsReal (x0 i)) (hE : ∀ i, IsReal (x2 i)) :
    quantA logitsR x0 x1 x2 = quantA logitsK x0 x1 x2 := by
  funext i
  unfold quantA quantC
  exact congrArg (fun e => quantRow _ e _ _) (encC_logits x0 x1 x2 hx hE _)

theorem klTot_logits (hx : ∀ i, IsReal (x0 i)) (hE : ∀ i, IsReal (x2 i)) :
    klTot logitsR x0 x2 = klTot logitsK x0 x2 := by
  unfold klTot
  refine congrArg (fun s => Ideal.div s (Ideal.ofBits .f32 0x44000000#32)) ?_
  exact Finset.sum_congr rfl fun k _ => Finset.sum_congr rfl fun n _ => klC_logits x0 x2 hx hE n k

theorem avgTot_logits (hx : ∀ i, IsReal (x0 i)) (hE : ∀ i, IsReal (x2 i)) :
    avgTot logitsR x0 x1 x2 = avgTot logitsK x0 x1 x2 := by
  funext k
  unfold avgTot
  refine congrArg (fun s => Ideal.div s (Ideal.ofBits .f32 0x48000000#32)) ?_
  exact Finset.sum_congr rfl fun n _ => congrFun (encC_logits x0 x1 x2 hx hE n) k

end Cert.VQ

end
-- ==== Proof.Finite.lean ====
/-
  The precondition read back: where `finite_inputs` answers all ones, every entry of the token array and every
  entry of the codebook is a real number (neither `⊥` nor `⊤`): each of its three conjuncts is an all-reduction of
  `|x| < +∞` over one argument array.
-/
import proofs.«111803_j8821862826425_2_alg».proof.Pre_finite_inputs
import proofs.«111803_j8821862826425_2_alg».proof.Proof.Gen.Pre_finite_inputs
import proofs.«111803_j8821862826425_2_alg».proof.Proof.LibBatchNorm
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.LibBatchNorm

/-- The shape of no axes has one index. -/
instance : Subsingleton Cert.Pre_finite_inputs.S_.Idx := ⟨fun a b => funext fun d => d.elim0⟩

/-- An entry whose absolute value compares below the word of plus infinity, broadcast from a scalar, is a real number. -/
theorem isReal_of_entry_lt_inf {s : Shape} (x : FVec Ideal s .f32)
    (hb : Cert.Pre_finite_inputs.S_.BroadcastsInDim s (![] : Fin 0 → Fin s.rank)) (i : s.Idx)
    (e : cmpf .olt (Host.absf x)
        (broadcastInDim s ![] hb (constant (F := Ideal) Cert.Pre_finite_inputs.S_ .f32 0x7F800000#32)) i = 1#1) :
    IsReal (x i) :=
  isReal_of_cmp_abs_lt_inf e

/-- Where the precondition holds, the token array and the codebook hold real numbers only. -/
theorem of_pre [Cert.Pre_finite_inputs.Facts]
    (a0 : FVec Ideal Cert.Pre_finite_inputs.S64x2048x128 .f32) (a1 : FVec Ideal Cert.Pre_finite_inputs.S131072x512 .f32)
    (a2 : FVec Ideal Cert.Pre_finite_inputs.S512x128 .f32)
    (h : Cert.Pre_finite_inputs.fn (F := Ideal) a0 a1 a2 = (fun _ => 1#1)) :
    (∀ i, IsReal (a0 i)) ∧ (∀ i, IsReal (a2 i)) := by
  have h0 := congrFun h ValueIdx.ix0
  dsimp only [Cert.Pre_finite_inputs.fn] at h0
  obtain ⟨h01, h2⟩ := IntOp.andi_eq_one.1 h0
  obtain ⟨h0', -⟩ := IntOp.andi_eq_one.1 h01
  exact ⟨fun i => isReal_of_entry_lt_inf a0 _ i (Host.reduce_andi_all _ _ _ _ _ h0' i),
    fun i => isReal_of_entry_lt_inf a2 _ i (Host.reduce_andi_all _ _ _ _ _ h2 i)⟩

end Cert.Finite

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KBody.lean ====
/-
  What one grid point of the kernel leaves in each of its four output blocks, read at an index, in the vocabulary of
  Proof/Spec.lean. A point sees a tile `x0` of 2048 token rows, the matching tile `x1` of uniform samples and the whole
  codebook `x2`. Row `p` of the code block is the relaxed one-hot code of row `p` (from the logits in their short
  spelling `logitsK`); row `p` of the quantised block is that code times the codebook, inside the straight-through sum;
  and every one of the eight rows of each partial-sum block holds the tile's column sums — of the divergence terms, and
  of the codes.
-/
import proofs.«111803_j8821862826425_2_alg».proof.Proof.Gen.KernelIdeal.Frame
import proofs.«111803_j8821862826425_2_alg».proof.Proof.Spec
import proofs.«111803_j8821862826425_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.VQ

/-! ## The operations that are not pointwise, read at an index -/

/-- The word of minus infinity. -/
theorem negInf_word : Ideal.ofBits .f32 0xFF800000#32 = ⊥ := by simp [Ideal.ofBits, Ideal.ieee]

/-- Row p with lane k put back is the index (p, k). -/
theorem lift_row (p : Fin 2048) (k : Fin 512) : reduces_S2048x512_S2048.lift (ix1 p) k = ix2 p k := by
  funext c; apply Fin.ext
  match c with
  | ⟨0, _⟩ => rfl
  | ⟨1, _⟩ => rfl

/-- Lane q with row k put back is the index (k, q). -/
theorem lift_col (q : Fin 512) (k : Fin 2048) : reduces_S2048x512_S512.lift (ix1 q) k = ix2 k q := by
  funext c; apply Fin.ext
  match c with
  | ⟨0, _⟩ => rfl
  | ⟨1, _⟩ => rfl

/-- Code q with coordinate d put back is the index (q, d). -/
theorem lift_code (q : Fin 512) (d : Fin 128) : reduces_S512x128_S512.lift (ix1 q) d = ix2 q d := by
  funext c; apply Fin.ext
  match c with
  | ⟨0, _⟩ => rfl
  | ⟨1, _⟩ => rfl

/-- The maximum over the 512 lanes of row p, from minus infinity. -/
theorem laneMax_apply (v : FVec Ideal S2048x512 .f32) (p : Fin 2048) :
    multiReduction .maximumf [1] S2048 v 0xFF800000#32 reduces_S2048x512_S2048 (.inl rfl) rfl (ix1 p)
      = rowMax (fun k => v (ix2 p k)) := by
  refine (Ideal.multiReduction_maximumf_single v 0xFF800000#32 reduces_S2048x512_S2048 (.inl rfl) rfl (ix1 p)).trans ?_
  unfold rowMax
  show (Finset.univ : Finset (Fin 512)).fold max (Ideal.ofBits .f32 0xFF800000#32) (fun k => v (reduces_S2048x512_S2048.lift (ix1 p) k)) = _
  rw [negInf_word]
  exact congrArg (fun f => Finset.fold max ⊥ f Finset.univ) (funext fun k => congrArg v (lift_row p k))

/-- The sum over the 512 lanes of row p. -/
theorem laneSum_apply (v : FVec Ideal S2048x512 .f32) (p : Fin 2048) :
    multiReduction .add [1] S2048 v 0x00000000#32 reduces_S2048x512_S2048 (.inl rfl) rfl (ix1 p)
      = ∑ k : Fin 512, v (ix2 p k) := by
  refine (Ideal.multiReduction_add_single v 0x00000000#32 reduces_S2048x512_S2048 (.inl rfl) rfl (ix1 p)).trans ?_
  show ∑ k : Fin 512, v (reduces_S2048x512_S2048.lift (ix1 p) k) = _
  simp only [lift_row]

/-- The sum over the 2048 rows of lane q. -/
theorem colSum_apply (v : FVec Ideal S2048x512 .f32) (q : Fin 512) :
    multiReduction .add [0] S512 v 0x00000000#32 reduces_S2048x512_S512 (.inl rfl) rfl (ix1 q)
      = ∑ k : Fin 2048, v (ix2 k q) := by
  refine (Ideal.multiReduction_add_single v 0x00000000#32 reduces_S2048x512_S512 (.inl rfl) rfl (ix1 q)).trans ?_
  show ∑ k : Fin 2048, v (reduces_S2048x512_S512.lift (ix1 q) k) = _
  simp only [lift_col]

/-- The sum over the 128 coordinates of code q. -/
theorem codeSum_apply (v : FVec Ideal S512x128 .f32) (q : Fin 512) :
    multiReduction .add [1] S512 v 0x00000000#32 reduces_S512x128_S512 (.inl rfl) rfl (ix1 q)
      = ∑ d : Fin 128, v (ix2 q d) := by
  refine (Ideal.multiReduction_add_single v 0x00000000#32 reduces_S512x128_S512 (.inl rfl) rfl (ix1 q)).trans ?_
  show ∑ d : Fin 128, v (reduces_S512x128_S512.lift (ix1 q) d) = _
  simp only [lift_code]

/-- A vector of 2048 entries, made a column and broadcast along 512 lanes, reads its entry of the row. -/
theorem colBroadcast_apply (u : FVec Ideal S2048 .f32) (p : Fin 2048) (q : Fin 512) :
    broadcastTo S2048x512 (shapeCast S2048x1 u shapeCasts_S2048_S2048x1) broadcasts_S2048x1_S2048x512 (ix2 p q) = u (ix1 p) :=
  (PhysLoss.broadcastTo_a1_ab_apply _ broadcasts_S2048x1_S2048x512 p q).trans
    (PhysLoss.shapeCast_a_a1_apply u shapeCasts_S2048_S2048x1 p (0 : Fin 1))

/-- A column broadcast along 512 lanes reads the column's entry of the row. -/
theorem colSpread_apply (w : FVec Ideal S2048x1 .f32) (p : Fin 2048) (q : Fin 512) :
    broadcastTo S2048x512 w broadcasts_S2048x1_S2048x512 (ix2 p q) = w (ix2 p (0 : Fin 1)) :=
  PhysLoss.broadcastTo_a1_ab_apply w broadcasts_S2048x1_S2048x512 p q

/-- A vector of 2048 entries made a column reads, in row p, its entry p. -/
theorem colCast_apply (u : FVec Ideal S2048 .f32) (p : Fin 2048) :
    shapeCast S2048x1 u shapeCasts_S2048_S2048x1 (ix2 p (0 : Fin 1)) = u (ix1 p) :=
  PhysLoss.shapeCast_a_a1_apply u shapeCasts_S2048_S2048x1 p (0 : Fin 1)

/-- A vector of 512 entries, made one row and broadcast down 2048 rows, reads its entry of the lane. -/
theorem rowBroadcast_apply (u : FVec Ideal S512 .f32) (p : Fin 2048) (q : Fin 512) :
    broadcastTo S2048x512 (shapeCast S1x512 u shapeCasts_S512_S1x512) broadcasts_S1x512_S2048x512 (ix2 p q) = u (ix1 q) :=
  (broadcastTo_1b_ab_apply _ broadcasts_S1x512_S2048x512 p q).trans
    (shapeCast_a_1a_apply u shapeCasts_S512_S1x512 (0 : Fin 1) q)

/-- The same down eight rows, through an identity cast. -/
theorem rowBroadcast8_apply (u : FVec Ideal S512 .f32) (r : Fin 8) (q : Fin 512) :
    broadcastTo S8x512 (shapeCast S1x512 (shapeCast S1x512 u shapeCasts_S512_S1x512) shapeCasts_S1x512_S1x512) broadcasts_S1x512_S8x512 (ix2 r q) = u (ix1 q) := by
  rw [shapeCast_self]
  exact (broadcastTo_1b_ab_apply _ broadcasts_S1x512_S8x512 r q).trans
    (shapeCast_a_1a_apply u shapeCasts_S512_S1x512 (0 : Fin 1) q)

/-- The operand indices of the first product at output index i and shared coordinate c: (i 0, c) and (c, i 1). -/
theorem dotA_lhs0 (i : S2048x512.Idx) (c : dot_S2048x128_S128x512_S2048x512_1_0_0_1_n_n.contr.Idx) : (dot_S2048x128_S128x512_S2048x512_1_0_0_1_n_n.lhsIdx i c 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem dotA_lhs1 (i : S2048x512.Idx) (c : dot_S2048x128_S128x512_S2048x512_1_0_0_1_n_n.contr.Idx) : (dot_S2048x128_S128x512_S2048x512_1_0_0_1_n_n.lhsIdx i c 1).val = (c ⟨0, by decide⟩).val :=
  dot_S2048x128_S128x512_S2048x512_1_0_0_1_n_n.lhsIdx_val_of_single rfl i c
theorem dotA_rhs0 (i : S2048x512.Idx) (c : dot_S2048x128_S128x512_S2048x512_1_0_0_1_n_n.contr.Idx) : (dot_S2048x128_S128x512_S2048x512_1_0_0_1_n_n.rhsIdx i c 0).val = (c ⟨0, by decide⟩).val :=
  dot_S2048x128_S128x512_S2048x512_1_0_0_1_n_n.rhsIdx_val_of_single rfl i c
theorem dotA_rhs1 (i : S2048x512.Idx) (c : dot_S2048x128_S128x512_S2048x512_1_0_0_1_n_n.contr.Idx) : (dot_S2048x128_S128x512_S2048x512_1_0_0_1_n_n.rhsIdx i c 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The product of a [2048, 128] array with a [128, 512] one, into zeros, at (p, q): the sum over the 128 shared coordinates. -/
theorem matmulRowsCodes_apply (l : FVec Ideal S2048x128 .f32) (r : FVec Ideal S128x512 .f32) (p : Fin 2048) (q : Fin 512) :
    matmul dot_S2048x128_S128x512_S2048x512_1_0_0_1_n_n none l r (constant S2048x512 .f32 0x00000000#32) (ix2 p q)
      = ∑ k : Fin 128, l (ix2 p k) * r (ix2 k q) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p q) ((contrEquiv1 dot_S2048x128_S128x512_S2048x512_1_0_0_1_n_n 128 rfl rfl).symm k) = ix2 p k := funext fun a => Fin.ext (by
    match a with
    | ⟨0, _⟩ => exact dotA_lhs0 _ _
    | ⟨1, _⟩ => exact (dotA_lhs1 _ _).trans hk)
  have er : dot_S2048x128_S128x512_S2048x512_1_0_0_1_n_n.rhsIdx (ix2 p q) ((contrEquiv1 dot_S2048x128_S128x512_S2048x512_1_0_0_1_n_n 128 rfl rfl).symm k) = ix2 k q := funext fun a => Fin.ext (by
    match a with
    | ⟨0, _⟩ => exact (dotA_rhs0 _ _).trans hk
    | ⟨1, _⟩ => exact dotA_rhs1 _ _)
  rw [el, er]

/-- The operand indices of the second product at output index i and shared coordinate c: (i 0, c) and (c, i 1). -/
theorem dotB_lhs0 (i : S2048x128.Idx) (c : dot_S2048x512_S512x128_S2048x128_1_0_0_1_n_n.contr.Idx) : (dot_S2048x512_S512x128_S2048x128_1_0_0_1_n_n.lhsIdx i c 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem dotB_lhs1 (i : S2048x128.Idx) (c : dot_S2048x512_S512x128_S2048x128_1_0_0_1_n_n.contr.Idx) : (dot_S2048x512_S512x128_S2048x128_1_0_0_1_n_n.lhsIdx i c 1).val = (c ⟨0, by decide⟩).val :=
  dot_S2048x512_S512x128_S2048x128_1_0_0_1_n_n.lhsIdx_val_of_single rfl i c
theorem dotB_rhs0 (i : S2048x128.Idx) (c : dot_S2048x512_S512x128_S2048x128_1_0_0_1_n_n.contr.Idx) : (dot_S2048x512_S512x128_S2048x128_1_0_0_1_n_n.rhsIdx i c 0).val = (c ⟨0, by decide⟩).val :=
  dot_S2048x512_S512x128_S2048x128_1_0_0_1_n_n.rhsIdx_val_of_single rfl i c
theorem dotB_rhs1 (i : S2048x128.Idx) (c : dot_S2048x512_S512x128_S2048x128_1_0_0_1_n_n.contr.Idx) : (dot_S2048x512_S512x128_S2048x128_1_0_0_1_n_n.rhsIdx i c 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The product of a [2048, 512] array with a [512, 128] one, into zeros, at (p, d): the sum over the 512 shared coordinates. -/
theorem matmulCodesBook_apply (l : FVec Ideal S2048x512 .f32) (r : FVec Ideal S512x128 .f32) (p : Fin 2048) (q : Fin 128) :
    matmul dot_S2048x512_S512x128_S2048x128_1_0_0_1_n_n none l r (constant S2048x128 .f32 0x00000000#32) (ix2 p q)
      = ∑ k : Fin 512, l (ix2 p k) * r (ix2 k q) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun a => Fin.ext (by
    match a with
    | ⟨0, _⟩ => exact dotB_lhs0 _ _
    | ⟨1, _⟩ => exact (dotB_lhs1 _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun a => Fin.ext (by
    match a with
    | ⟨0, _⟩ => exact (dotB_rhs0 _ _).trans hk
    | ⟨1, _⟩ => exact dotB_rhs1 _ _)
  rw [el, er]

/-! ## The payloads at an index -/

/-- The identity cast of the token tile. -/
theorem pay5_eq (x0 : Vec Ideal S2048x128 .f32) : k0_pay5 (F := Ideal) x0 = x0 := by
  unfold k0_pay5
  exact shapeCast_self x0 _

/-- The logits of row p against code q, in their short spelling. -/
theorem pay6_apply (x0 : Vec Ideal S2048x128 .f32) (x2 : Vec Ideal S512x128 .f32) (p : Fin 2048) (q : Fin 512) :
    k0_pay6 (F := Ideal) x0 x2 (ix2 p q) = logitsK (fun d => x0 (ix2 p d)) (fun k d => x2 (ix2 k d)) q := by
  have ht : ∀ k : Fin 128, transpose S128x512 [1, 0] x2 transposes_S512x128_p1_0_S128x512 (ix2 k q) = x2 (ix2 q k) :=
    fun k => transpose_ix2_apply x2 transposes_S512x128_p1_0_S128x512 k q
  unfold k0_pay6 logitsK
  simp only [subf_apply, mulf_apply, broadcast_apply, rowBroadcast_apply, matmulRowsCodes_apply, pay5_eq, Ideal.ofBits_def]
  rw [codeSum_apply]
  simp only [ht, mulf_apply]

/-- An exponential of an array reads, at an index, the exponential of the entry; a logarithm likewise. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- The stable log-softmax of row p's logits, at code q. -/
theorem pay7_apply (x0 : Vec Ideal S2048x128 .f32) (x2 : Vec Ideal S512x128 .f32) (p : Fin 2048) (q : Fin 512) :
    k0_pay7 (F := Ideal) x0 x2 (ix2 p q) = logp (logitsK (fun d => x0 (ix2 p d)) (fun k d => x2 (ix2 k d))) q := by
  unfold k0_pay7
  simp only [subf_apply, colBroadcast_apply, colSpread_apply, log_apply, colCast_apply]
  rw [laneMax_apply, laneSum_apply]
  simp only [exp_apply, subf_apply, colBroadcast_apply]
  rw [laneMax_apply]
  simp only [pay6_apply]
  rfl

/-- The softmax of row p's logits as the exponential of the log-softmax, at code q. -/
theorem pay8_apply (x0 : Vec Ideal S2048x128 .f32) (x2 : Vec Ideal S512x128 .f32) (p : Fin 2048) (q : Fin 512) :
    k0_pay8 (F := Ideal) x0 x2 (ix2 p q)
      = Ideal.exp (logp (logitsK (fun d => x0 (ix2 p d)) (fun k d => x2 (ix2 k d))) q) := by
  unfold k0_pay8
  simp only [exp_apply, pay7_apply]

/-- The exponential of the shifted perturbed logits of row p over the temperature, at code q. -/
theorem pay9_apply (x0 : Vec Ideal S2048x128 .f32) (x2 : Vec Ideal S512x128 .f32) (x1 : Vec Ideal S2048x512 .f32)
    (p : Fin 2048) (q : Fin 512) :
    k0_pay9 (F := Ideal) x0 x2 x1 (ix2 p q)
      = Ideal.exp (shifted (scaled (logitsK (fun d => x0 (ix2 p d)) (fun k d => x2 (ix2 k d))) (fun k => x1 (ix2 p k))) q) := by
  unfold k0_pay9
  simp only [exp_apply, subf_apply, colBroadcast_apply]
  rw [laneMax_apply]
  simp only [divf_apply, addf_apply, subf_apply, log_apply, broadcast_apply, minimumf_apply, maximumf_apply, pay6_apply,
    Ideal.ofBits_def, Ideal.ofBits_zero_f32, zero_sub]
  rfl

/-- A row of an array over the row's sum. -/
theorem pay1_apply (v : FVec Ideal S2048x512 .f32) (p : Fin 2048) (q : Fin 512) :
    k0_pay1 (F := Ideal) v (ix2 p q) = Ideal.div (v (ix2 p q)) (∑ k : Fin 512, v (ix2 p k)) := by
  unfold k0_pay1
  simp only [divf_apply, colBroadcast_apply]
  rw [laneSum_apply]

/-- The relaxed one-hot code of row p, at code q. -/
theorem code_apply (x0 : Vec Ideal S2048x128 .f32) (x2 : Vec Ideal S512x128 .f32) (x1 : Vec Ideal S2048x512 .f32)
    (p : Fin 2048) (q : Fin 512) :
    k0_pay1 (F := Ideal) (k0_pay9 x0 x2 x1) (ix2 p q)
      = encRow (logitsK (fun d => x0 (ix2 p d)) (fun k d => x2 (ix2 k d))) (fun k => x1 (ix2 p k)) q := by
  rw [pay1_apply]
  simp only [pay9_apply]
  rfl

/-- The offsets of every rectangle of the body are zero. -/
theorem offsets_zero : (![0, 0] : Fin 2 → Nat) = fun _ => 0 := funext fun a => by fin_cases a <;> rfl

/-- Every row of the eight holds the column sums of the array over its 2048 rows. -/
theorem pay4_apply (v : FVec Ideal S2048x512 .f32) (r : Fin 8) (q : Fin 512) :
    k0_pay4 (F := Ideal) v (ix2 r q) = ∑ p : Fin 2048, k0_pay1 (F := Ideal) v (ix2 p q) := by
  unfold k0_pay4
  simp only [rowBroadcast8_apply]
  rw [colSum_apply]

/-- Every row of the eight holds the column sums of the divergence terms `p · (log p + log 512)`, zero where `p` is. -/
theorem pay3_apply (lp pr : FVec Ideal S2048x512 .f32) (r : Fin 8) (q : Fin 512) :
    k0_pay3 (F := Ideal) lp pr (ix2 r q)
      = ∑ p : Fin 2048, Scalar.select (FloatOps.cmpf (F := Ideal) (φ := .f32) .oeq (pr (ix2 p q)) 0) 0
          (pr (ix2 p q) * (lp (ix2 p q) + Ideal.ofBits .f32 0x40C7A05B#32)) := by
  unfold k0_pay3
  simp only [rowBroadcast8_apply]
  rw [colSum_apply]
  simp only [select_apply, cmpf_apply, broadcast_apply, mulf_apply, addf_apply, Ideal.ofBits_def, Ideal.ofBits_zero_f32]

/-- The straight-through sum of a tile with the product of an array's row-normalised form and the codebook. -/
theorem pay2_apply (x : FVec Ideal S2048x128 .f32) (E : Vec Ideal S512x128 .f32) (v : FVec Ideal S2048x512 .f32)
    (p : Fin 2048) (d : Fin 128) :
    k0_pay2 (F := Ideal) x E v (ix2 p d)
      = x (ix2 p d) + ((∑ k : Fin 512, k0_pay1 (F := Ideal) v (ix2 p k) * E (ix2 k d)) - x (ix2 p d)) := by
  unfold k0_pay2
  simp only [addf_apply, subf_apply, matmulCodesBook_apply]

/-! ## The four output blocks -/

/-- The code block at (p, q): the relaxed one-hot code of the tile's row `p`, at code `q`. -/
theorem out4_apply (x0 : Vec Ideal S2048x128 .f32) (x1 : Vec Ideal S2048x512 .f32) (x2 : Vec Ideal S512x128 .f32)
    (p : Fin 2048) (q : Fin 512) :
    out0_4 (F := Ideal) x0 x1 x2 (ix2 p q)
      = encRow (logitsK (fun d => x0 (ix2 p d)) (fun k d => x2 (ix2 k d))) (fun k => x1 (ix2 p k)) q := by
  unfold out0_4
  rw [View.canon_unit_zero offsets_zero]
  simp only [View.ld_unit_zero (S := S2048x128) offsets_zero, View.ld_unit_zero (S := S512x128) offsets_zero,
    View.ld_unit_zero (S := S2048x512) offsets_zero]
  exact code_apply x0 x2 x1 p q

/-- The quantised block at (p, d): row `p`'s code times the codebook, inside the straight-through sum. -/
theorem out3_apply (x0 : Vec Ideal S2048x128 .f32) (x1 : Vec Ideal S2048x512 .f32) (x2 : Vec Ideal S512x128 .f32)
    (p : Fin 2048) (d : Fin 128) :
    out0_3 (F := Ideal) x0 x1 x2 (ix2 p d)
      = quantRow (fun d => x0 (ix2 p d))
          (encRow (logitsK (fun d => x0 (ix2 p d)) (fun k d => x2 (ix2 k d))) (fun k => x1 (ix2 p k)))
          (fun k d => x2 (ix2 k d)) d := by
  unfold out0_3
  rw [View.canon_unit_zero offsets_zero]
  simp only [View.ld_unit_zero (S := S2048x128) offsets_zero, View.ld_unit_zero (S := S512x128) offsets_zero,
    View.ld_unit_zero (S := S2048x512) offsets_zero, pay5_eq]
  rw [pay2_apply]
  simp only [code_apply]
  rfl

/-- The divergence partial-sum block at (r, q), for each of its eight rows `r`: the tile's sum over its 2048 rows. -/
theorem out5_apply (x0 : Vec Ideal S2048x128 .f32) (x1 : Vec Ideal S2048x512 .f32) (x2 : Vec Ideal S512x128 .f32)
    (r : Fin 8) (q : Fin 512) :
    out0_5 (F := Ideal) x0 x1 x2 (ix2 r q)
      = ∑ p : Fin 2048, klRow (logitsK (fun d => x0 (ix2 p d)) (fun k d => x2 (ix2 k d))) q := by
  unfold out0_5
  rw [View.canon_unit_zero offsets_zero]
  simp only [View.ld_unit_zero (S := S2048x128) offsets_zero, View.ld_unit_zero (S := S512x128) offsets_zero]
  rw [pay3_apply]
  refine Finset.sum_congr rfl fun p _ => ?_
  rw [pay8_apply, pay7_apply]
  rfl

/-- The code partial-sum block at (r, q), for each of its eight rows `r`: the tile's sum over its 2048 rows. -/
theorem out6_apply (x0 : Vec Ideal S2048x128 .f32) (x1 : Vec Ideal S2048x512 .f32) (x2 : Vec Ideal S512x128 .f32)
    (r : Fin 8) (q : Fin 512) :
    out0_6 (F := Ideal) x0 x1 x2 (ix2 r q)
      = ∑ p : Fin 2048, encRow (logitsK (fun d => x0 (ix2 p d)) (fun k d => x2 (ix2 k d))) (fun k => x1 (ix2 p k)) q := by
  unfold out0_6
  rw [View.canon_unit_zero offsets_zero]
  simp only [View.ld_unit_zero (S := S2048x128) offsets_zero, View.ld_unit_zero (S := S512x128) offsets_zero,
    View.ld_unit_zero (S := S2048x512) offsets_zero]
  rw [pay4_apply]
  exact Finset.sum_congr rfl fun p _ => code_apply x0 x2 x1 p q

end Cert.KernelIdeal.Body

end
-- ==== Proof.KArr.lean ====
/-
  From the tiles to the whole arrays, for the idealized kernel. Tile `t` of the 64 sees rows 2048·t … 2048·t + 2047 of the
  token rows (the first argument read as 131072 rows of 128) and of the uniform samples, and the whole codebook; it writes
  rows 2048·t … 2048·t + 2047 of the code array and of the flat quantised array, and rows 8·t … 8·t + 7 of the two
  partial-sum arrays. So after the last tile the code array is `encA logitsK` of the arguments, the flat quantised array
  is `quantC logitsK` row by row, and row `R` of each partial-sum array holds the column sums of tile `R / 8`.
  After the tiles: the quantised array is read back as [64, 2048, 128] (row b·2048 + t is (b, t)); the divergence is the
  512 partial-sum rows added, an eighth of it, added over the codes, over 512; the perplexity is that of the 512 rows
  of code sums added, over 8·131072.
-/
import proofs.«111803_j8821862826425_2_alg».proof.Proof.Gen.KernelIdeal.Frame
import proofs.«111803_j8821862826425_2_alg».proof.Proof.Spec
import proofs.«111803_j8821862826425_2_alg».proof.Proof.KBody
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Arr

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.VQ

variable (m : (ℓ : Loc nD τ sig) → Buf (Elt Ideal) ℓ) (ρ : Dev nD → PrngReg)

theorem hN : cfg0.N = 64 := N_0

/-- The array window 0 reads is the row-major reshape of the first argument. -/
theorem V_v0 (c : Dev nD) : (V m c main_v0 : S131072x128.Idx → EReal)
    = shapeCast _ (m ((c : Thread nD τ).loc main_arg0)) shapeCasts_S64x2048x128_S131072x128 := by
  show StableHlo.after hostOps0 (fun b => m (c, b)) (Proc.devRef .tc main_v0) = _
  after_results
  rfl

/-- Read at (n, d) it is row `n` of the first argument. -/
theorem V_v0_apply (c : Dev nD) (n : Fin 131072) (d : Fin 128) :
    (V m c main_v0 : S131072x128.Idx → EReal) (ix2 n d) = rowX (m ((c : Thread nD τ).loc main_arg0)) n d := by
  rw [V_v0]
  unfold rowX
  refine shapeCast_apply _ shapeCasts_S64x2048x128_S131072x128 (ix2 n d) _ ?_
  rewrite [Shape.rowMajor_val_three, Shape.rowMajor_val_two]
  have h0 : n.val < 131072 := n.isLt
  have h1 : d.val < 128 := d.isLt
  show (n.val / 2048 * 2048 + n.val % 2048) * 128 + d.val = n.val * 128 + d.val
  omega

/-- The printed index maps over the grid: every blocked window sits at block (t, 0), the codebook at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Tile `t`'s block of token rows, at (p, d), is row `2048·t + p` of the first argument. -/
theorem blk0_apply (c : Dev nD) (t : Fin cfg0.N) (p : Fin 2048) (d : Fin 128) (n : Fin 131072)
    (hn : n.val = 2048 * t.val + p.val) :
    (iblk m c 0 t : Vec Ideal S2048x128 .f32) (ix2 p d) = rowX (m ((c : Thread nD τ).loc main_arg0)) n d := by
  rw [← V_v0_apply m c n d]
  obtain ⟨e0, e1, -⟩ := idx_facts t
  show V m c main_v0 (((cfg0.win 0).blk t).view.emb (ix2 p d)) = V m c main_v0 (ix2 n d)
  refine congrArg _ (funext fun a => Fin.ext ?_)
  match a with
  | ⟨0, _⟩ => show win0_0.index t (0 : Fin 2) * 2048 + 1 * p.val = n.val; omega
  | ⟨1, _⟩ => show win0_0.index t (1 : Fin 2) * 128 + 1 * d.val = d.val; omega

/-- Tile `t`'s block of uniform samples, at (p, k), is row `2048·t + p` of the second argument. -/
theorem blk1_apply (c : Dev nD) (t : Fin cfg0.N) (p : Fin 2048) (k : Fin 512) (n : Fin 131072)
    (hn : n.val = 2048 * t.val + p.val) :
    (iblk m c 1 t : Vec Ideal S2048x512 .f32) (ix2 p k) = rowU (m ((c : Thread nD τ).loc main_arg1)) n k := by
  unfold rowU
  rw [← V_main_arg1 m c]
  obtain ⟨-, -, e0, e1, -⟩ := idx_facts t
  show V m c main_arg1 (((cfg0.win 1).blk t).view.emb (ix2 p k)) = V m c main_arg1 (ix2 n k)
  refine congrArg _ (funext fun a => Fin.ext ?_)
  match a with
  | ⟨0, _⟩ => show win0_1.index t (0 : Fin 2) * 2048 + 1 * p.val = n.val; omega
  | ⟨1, _⟩ => show win0_1.index t (1 : Fin 2) * 512 + 1 * k.val = k.val; omega

/-- Every tile's codebook block is the whole third argument. -/
theorem blk2_apply (c : Dev nD) (t : Fin cfg0.N) (k : Fin 512) (d : Fin 128) :
    (iblk m c 2 t : Vec Ideal S512x128 .f32) (ix2 k d) = matE (m ((c : Thread nD τ).loc main_arg2)) k d := by
  unfold matE
  rw [← V_main_arg2 m c]
  obtain ⟨-, -, -, -, e0, e1, -⟩ := idx_facts t
  show V m c main_arg2 (((cfg0.win 2).blk t).view.emb (ix2 k d)) = V m c main_arg2 (ix2 k d)
  refine congrArg _ (funext fun a => Fin.ext ?_)
  match a with
  | ⟨0, _⟩ => show win0_2.index t (0 : Fin 2) * 512 + 1 * k.val = k.val; omega
  | ⟨1, _⟩ => show win0_2.index t (1 : Fin 2) * 128 + 1 * d.val = d.val; omega

/-- Row `p` of tile `t` among the 131072 rows. -/
def rowAt (t : Fin cfg0.N) (p : Fin 2048) : Fin 131072 :=
  ⟨2048 * t.val + p.val, by have ht : t.val < 64 := lt_of_lt_of_eq t.isLt hN; have := p.isLt; omega⟩

theorem rowAt_val (t : Fin cfg0.N) (p : Fin 2048) : (rowAt t p).val = 2048 * t.val + p.val := rfl

/-- The three input blocks of tile `t`, read along row `p`, are row `rowAt t p` of the arguments and the whole codebook. -/
theorem blk0_row (c : Dev nD) (t : Fin cfg0.N) (p : Fin 2048) :
    (fun d => (iblk m c 0 t : Vec Ideal S2048x128 .f32) (ix2 p d)) = rowX (m ((c : Thread nD τ).loc main_arg0)) (rowAt t p) :=
  funext fun d => blk0_apply m c t p d (rowAt t p) rfl
theorem blk1_row (c : Dev nD) (t : Fin cfg0.N) (p : Fin 2048) :
    (fun k => (iblk m c 1 t : Vec Ideal S2048x512 .f32) (ix2 p k)) = rowU (m ((c : Thread nD τ).loc main_arg1)) (rowAt t p) :=
  funext fun k => blk1_apply m c t p k (rowAt t p) rfl
theorem blk2_mat (c : Dev nD) (t : Fin cfg0.N) :
    (fun k d => (iblk m c 2 t : Vec Ideal S512x128 .f32) (ix2 k d)) = matE (m ((c : Thread nD τ).loc main_arg2)) :=
  funext fun k => funext fun d => blk2_apply m c t k d

/-- The code block of tile `t` at (p, q) is the code of row `rowAt t p` at `q`. -/
theorem out4_point (c : Dev nD) (t : Fin cfg0.N) (p : Fin 2048) (q : Fin 512) :
    out0_4 (F := Ideal) (iblk m c 0 t) (iblk m c 1 t) (iblk m c 2 t) (ix2 p q) = encC logitsK (m ((c : Thread nD τ).loc main_arg0)) (m ((c : Thread nD τ).loc main_arg1)) (m ((c : Thread nD τ).loc main_arg2)) (rowAt t p) q := by
  refine (Body.out4_apply (iblk m c 0 t) (iblk m c 1 t) (iblk m c 2 t) p q).trans ?_
  unfold encC
  rw [blk0_row m c t p, blk1_row m c t p, blk2_mat m c t]

/-- What tile `t` writes back to the code array is its block of `encA`. -/
theorem flushed4_eq (c : Dev nD) (t : Fin cfg0.N) :
    (dats m 0 c).flushed 4 t = ((cfg0.win 4).blk t).view.read (Elt Ideal) (encA logitsK (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  obtain ⟨-, -, -, -, -, -, -, -, e0, e1, -⟩ := idx_facts t
  refine funext fun (j : S2048x512.Idx) => ?_
  obtain ⟨p, q, rfl⟩ : ∃ (p : Fin 2048) (q : Fin 512), j = ix2 p q := ⟨j 0, j 1, eq_ix2 j⟩
  show out0_4 (F := Ideal) (iblk m c 0 t) (iblk m c 1 t) (iblk m c 2 t) (ix2 p q) = encA logitsK (m ((c : Thread nD τ).loc main_arg0)) (m ((c : Thread nD τ).loc main_arg1)) (m ((c : Thread nD τ).loc main_arg2)) (((cfg0.win 4).blk t).view.emb (ix2 p q))
  rw [out4_point m c t p q]
  unfold encA
  congr 1 <;> apply Fin.ext
  · show 2048 * t.val + p.val = win0_4.index t (0 : Fin 2) * 2048 + 1 * p.val; omega
  · show q.val = win0_4.index t (1 : Fin 2) * 512 + 1 * q.val; omega

/-- An index of window 4's array is in tile `t`'s block iff each coordinate is in the block's range on its axis. -/
theorem mem_blk4 (t : Fin cfg0.N) (i : S131072x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v1_1).slice (win0_4.rect t)).set ↔ _
  rw [View.set_slice_whole, Rect.mem_set_unit]
  exact Iff.rfl

/-- Every index of window 4's array is in the block of the tile that owns its row. -/
theorem cover4 (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  obtain ⟨t, ht⟩ : ∃ t : Fin cfg0.N, t.val = (i 0).val / 2048 := ⟨⟨(i 0).val / 2048, by rw [hN]; omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- The code array after the run. -/
theorem final4 (c : Dev nD) : (dats m 0 c).arrAt 4 cfg0.N = encA logitsK (m ((c : Thread nD τ).loc main_arg0)) (m ((c : Thread nD τ).loc main_arg1)) (m ((c : Thread nD τ).loc main_arg2)) :=
  (dats m 0 c).arrAt_eq_of_cover 4 _ (fun t _ => flushed4_eq m c t) cover4

/-- The quantised rows as a flat array of shape [131072, 128]. -/
def quantF (x0 : SX.Idx → EReal) (x1 : SU.Idx → EReal) (x2 : SE.Idx → EReal) : S131072x128.Idx → EReal :=
  fun i => quantC logitsK x0 x1 x2 (i 0) (i 1)
/-- The per-tile column sums of the divergence terms as an array of shape [512, 512]. -/
def klP (x0 : SX.Idx → EReal) (x2 : SE.Idx → EReal) : S512x512.Idx → EReal :=
  fun i => partKL logitsK x0 x2 (i 0) (i 1)
/-- The per-tile column sums of the codes as an array of shape [512, 512]. -/
def encP (x0 : SX.Idx → EReal) (x1 : SU.Idx → EReal) (x2 : SE.Idx → EReal) : S512x512.Idx → EReal :=
  fun i => partEnc logitsK x0 x1 x2 (i 0) (i 1)

/-- The quantised block of tile `t` at (p, d) is the quantised row `rowAt t p` at `d`. -/
theorem out3_point (c : Dev nD) (t : Fin cfg0.N) (p : Fin 2048) (d : Fin 128) :
    out0_3 (F := Ideal) (iblk m c 0 t) (iblk m c 1 t) (iblk m c 2 t) (ix2 p d) = quantC logitsK (m ((c : Thread nD τ).loc main_arg0)) (m ((c : Thread nD τ).loc main_arg1)) (m ((c : Thread nD τ).loc main_arg2)) (rowAt t p) d := by
  refine (Body.out3_apply (iblk m c 0 t) (iblk m c 1 t) (iblk m c 2 t) p d).trans ?_
  rw [blk0_row m c t p, blk1_row m c t p, blk2_mat m c t]
  rfl

/-- What tile `t` writes back to the quantised array is its block of `quantF`. -/
theorem flushed3_eq (c : Dev nD) (t : Fin cfg0.N) :
    (dats m 0 c).flushed 3 t = ((cfg0.win 3).blk t).view.read (Elt Ideal) (quantF (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  obtain ⟨-, -, -, -, -, -, e0, e1, -⟩ := idx_facts t
  refine funext fun (j : S2048x128.Idx) => ?_
  obtain ⟨p, d, rfl⟩ : ∃ (p : Fin 2048) (d : Fin 128), j = ix2 p d := ⟨j 0, j 1, eq_ix2 j⟩
  show out0_3 (F := Ideal) (iblk m c 0 t) (iblk m c 1 t) (iblk m c 2 t) (ix2 p d) = quantF (m ((c : Thread nD τ).loc main_arg0)) (m ((c : Thread nD τ).loc main_arg1)) (m ((c : Thread nD τ).loc main_arg2)) (((cfg0.win 3).blk t).view.emb (ix2 p d))
  rw [out3_point m c t p d]
  unfold quantF
  congr 1 <;> apply Fin.ext
  · show 2048 * t.val + p.val = win0_3.index t (0 : Fin 2) * 2048 + 1 * p.val; omega
  · show d.val = win0_3.index t (1 : Fin 2) * 128 + 1 * d.val; omega

/-- An index of window 3's array is in tile `t`'s block iff each coordinate is in the block's range on its axis. -/
theorem mem_blk3 (t : Fin cfg0.N) (i : S131072x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v1_0).slice (win0_3.rect t)).set ↔ _
  rw [View.set_slice_whole, Rect.mem_set_unit]
  exact Iff.rfl

/-- Every index of window 3's array is in the block of the tile that owns its row. -/
theorem cover3 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ : ∃ t : Fin cfg0.N, t.val = (i 0).val / 2048 := ⟨⟨(i 0).val / 2048, by rw [hN]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The quantised array after the run, flat. -/
theorem final3 (c : Dev nD) : (dats m 0 c).arrAt 3 cfg0.N = quantF (m ((c : Thread nD τ).loc main_arg0)) (m ((c : Thread nD τ).loc main_arg1)) (m ((c : Thread nD τ).loc main_arg2)) :=
  (dats m 0 c).arrAt_eq_of_cover 3 _ (fun t _ => flushed3_eq m c t) cover3

/-- Each of the eight rows of tile `t`'s divergence block holds the tile's column sums. -/
theorem out5_point (c : Dev nD) (t : Fin cfg0.N) (r : Fin 8) (q : Fin 512) (R : Fin 512) (hR : R.val = 8 * t.val + r.val) :
    out0_5 (F := Ideal) (iblk m c 0 t) (iblk m c 1 t) (iblk m c 2 t) (ix2 r q) = partKL logitsK (m ((c : Thread nD τ).loc main_arg0)) (m ((c : Thread nD τ).loc main_arg2)) R q := by
  refine (Body.out5_apply (iblk m c 0 t) (iblk m c 1 t) (iblk m c 2 t) r q).trans ?_
  unfold partKL
  refine Finset.sum_congr rfl fun p _ => ?_
  have hrow : tileRow R p = rowAt t p :=
    Fin.ext (by show 2048 * (R.val / 8) + p.val = 2048 * t.val + p.val; have := r.isLt; omega)
  rw [hrow, blk0_row m c t p, blk2_mat m c t]
  rfl

/-- What tile `t` writes back to the divergence partial sums is its block of `klP`. -/
theorem flushed5_eq (c : Dev nD) (t : Fin cfg0.N) :
    (dats m 0 c).flushed 5 t = ((cfg0.win 5).blk t).view.read (Elt Ideal) (klP (m ((c : Thread nD τ).loc main_arg0)) (m ((c : Thread nD τ).loc main_arg2))) := by
  show (cfg0.win 5).cut (grid0.coords t) ((dats m 0 c).after 5 t) = _
  rw [after0_5]
  obtain ⟨-, -, -, -, -, -, -, -, -, -, e0, e1, -⟩ := idx_facts t
  have ht : t.val < 64 := lt_of_lt_of_eq t.isLt hN
  refine funext fun (j : S8x512.Idx) => ?_
  obtain ⟨r, q, rfl⟩ : ∃ (r : Fin 8) (q : Fin 512), j = ix2 r q := ⟨j 0, j 1, eq_ix2 j⟩
  obtain ⟨R, hR⟩ : ∃ R : Fin 512, R.val = 8 * t.val + r.val := ⟨⟨8 * t.val + r.val, by have := r.isLt; omega⟩, rfl⟩
  show out0_5 (F := Ideal) (iblk m c 0 t) (iblk m c 1 t) (iblk m c 2 t) (ix2 r q) = klP (m ((c : Thread nD τ).loc main_arg0)) (m ((c : Thread nD τ).loc main_arg2)) (((cfg0.win 5).blk t).view.emb (ix2 r q))
  rw [out5_point m c t r q R hR]
  unfold klP
  congr 1 <;> apply Fin.ext
  · show R.val = win0_5.index t (0 : Fin 2) * 8 + 1 * r.val; omega
  · show q.val = win0_5.index t (1 : Fin 2) * 512 + 1 * q.val; omega

/-- An index of window 5's array is in tile `t`'s block iff each coordinate is in the block's range on its axis. -/
theorem mem_blk5 (t : Fin cfg0.N) (i : S512x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v1_2).slice (win0_5.rect t)).set ↔ _
  rw [View.set_slice_whole, Rect.mem_set_unit]
  exact Iff.rfl

/-- Every index of window 5's array is in the block of the tile that owns its row. -/
theorem cover5 (i : S512x512.Idx) :
    ∃ t : Fin cfg0.N, (cfg0.win 5).flush t = true ∧ i ∈ ((cfg0.win 5).blk t).view.set := by
  have hi0 : (i 0).val < 512 := (i 0).isLt
  have hi1 : (i 1).val < 512 := (i 1).isLt
  obtain ⟨t, ht⟩ : ∃ t : Fin cfg0.N, t.val = (i 0).val / 8 := ⟨⟨(i 0).val / 8, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 512 ≤ (i 1).val ∧ (i 1).val < win0_5.index t (1 : Fin 2) * 512 + 512; omega

/-- The divergence partial sums after the run. -/
theorem final5 (c : Dev nD) : (dats m 0 c).arrAt 5 cfg0.N = klP (m ((c : Thread nD τ).loc main_arg0)) (m ((c : Thread nD τ).loc main_arg2)) :=
  (dats m 0 c).arrAt_eq_of_cover 5 _ (fun t _ => flushed5_eq m c t) cover5

/-- Each of the eight rows of tile `t`'s code-sum block holds the tile's column sums. -/
theorem out6_point (c : Dev nD) (t : Fin cfg0.N) (r : Fin 8) (q : Fin 512) (R : Fin 512) (hR : R.val = 8 * t.val + r.val) :
    out0_6 (F := Ideal) (iblk m c 0 t) (iblk m c 1 t) (iblk m c 2 t) (ix2 r q) = partEnc logitsK (m ((c : Thread nD τ).loc main_arg0)) (m ((c : Thread nD τ).loc main_arg1)) (m ((c : Thread nD τ).loc main_arg2)) R q := by
  refine (Body.out6_apply (iblk m c 0 t) (iblk m c 1 t) (iblk m c 2 t) r q).trans ?_
  unfold partEnc
  refine Finset.sum_congr rfl fun p _ => ?_
  have hrow : tileRow R p = rowAt t p :=
    Fin.ext (by show 2048 * (R.val / 8) + p.val = 2048 * t.val + p.val; have := r.isLt; omega)
  rw [hrow, blk0_row m c t p, blk1_row m c t p, blk2_mat m c t]
  rfl

/-- What tile `t` writes back to the code partial sums is its block of `encP`. -/
theorem flushed6_eq (c : Dev nD) (t : Fin cfg0.N) :
    (dats m 0 c).flushed 6 t = ((cfg0.win 6).blk t).view.read (Elt Ideal) (encP (m ((c : Thread nD τ).loc main_arg0)) (m ((c : Thread nD τ).loc main_arg1)) (m ((c : Thread nD τ).loc main_arg2))) := by
  show (cfg0.win 6).cut (grid0.coords t) ((dats m 0 c).after 6 t) = _
  rw [after0_6]
  obtain ⟨-, -, -, -, -, -, -, -, -, -, -, -, e0, e1⟩ := idx_facts t
  have ht : t.val < 64 := lt_of_lt_of_eq t.isLt hN
  refine funext fun (j : S8x512.Idx) => ?_
  obtain ⟨r, q, rfl⟩ : ∃ (r : Fin 8) (q : Fin 512), j = ix2 r q := ⟨j 0, j 1, eq_ix2 j⟩
  obtain ⟨R, hR⟩ : ∃ R : Fin 512, R.val = 8 * t.val + r.val := ⟨⟨8 * t.val + r.val, by have := r.isLt; omega⟩, rfl⟩
  show out0_6 (F := Ideal) (iblk m c 0 t) (iblk m c 1 t) (iblk m c 2 t) (ix2 r q) = encP (m ((c : Thread nD τ).loc main_arg0)) (m ((c : Thread nD τ).loc main_arg1)) (m ((c : Thread nD τ).loc main_arg2)) (((cfg0.win 6).blk t).view.emb (ix2 r q))
  rw [out6_point m c t r q R hR]
  unfold encP
  congr 1 <;> apply Fin.ext
  · show R.val = win0_6.index t (0 : Fin 2) * 8 + 1 * r.val; omega
  · show q.val = win0_6.index t (1 : Fin 2) * 512 + 1 * q.val; omega

/-- An index of window 6's array is in tile `t`'s block iff each coordinate is in the block's range on its axis. -/
theorem mem_blk6 (t : Fin cfg0.N) (i : S512x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v1_3).slice (win0_6.rect t)).set ↔ _
  rw [View.set_slice_whole, Rect.mem_set_unit]
  exact Iff.rfl

/-- Every index of window 6's array is in the block of the tile that owns its row. -/
theorem cover6 (i : S512x512.Idx) :
    ∃ t : Fin cfg0.N, (cfg0.win 6).flush t = true ∧ i ∈ ((cfg0.win 6).blk t).view.set := by
  have hi0 : (i 0).val < 512 := (i 0).isLt
  have hi1 : (i 1).val < 512 := (i 1).isLt
  obtain ⟨t, ht⟩ : ∃ t : Fin cfg0.N, t.val = (i 0).val / 8 := ⟨⟨(i 0).val / 8, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 512 ≤ (i 1).val ∧ (i 1).val < win0_6.index t (1 : Fin 2) * 512 + 512; omega

/-- The code partial sums after the run. -/
theorem final6 (c : Dev nD) : (dats m 0 c).arrAt 6 cfg0.N = encP (m ((c : Thread nD τ).loc main_arg0)) (m ((c : Thread nD τ).loc main_arg1)) (m ((c : Thread nD τ).loc main_arg2)) :=
  (dats m 0 c).arrAt_eq_of_cover 6 _ (fun t _ => flushed6_eq m c t) cover6

/-! ## The host operations after the region -/

/-- The region's exit contents at each output array. -/
theorem exit3 (c : Dev nD) : Pipeline.withArrays (cfgs 0).spec c (V0 m c) (fun w => (dats m 0 c).arrAt w (cfgs 0).N) (Proc.devRef .tc main_v1_0) = quantF (m ((c : Thread nD τ).loc main_arg0)) (m ((c : Thread nD τ).loc main_arg1)) (m ((c : Thread nD τ).loc main_arg2)) :=
  (Pipeline.withArrays_arr spec0 launch0.win.arr_inj c _ _ 3).trans (final3 m c)
theorem exit5 (c : Dev nD) : Pipeline.withArrays (cfgs 0).spec c (V0 m c) (fun w => (dats m 0 c).arrAt w (cfgs 0).N) (Proc.devRef .tc main_v1_2) = klP (m ((c : Thread nD τ).loc main_arg0)) (m ((c : Thread nD τ).loc main_arg2)) :=
  (Pipeline.withArrays_arr spec0 launch0.win.arr_inj c _ _ 5).trans (final5 m c)
theorem exit6 (c : Dev nD) : Pipeline.withArrays (cfgs 0).spec c (V0 m c) (fun w => (dats m 0 c).arrAt w (cfgs 0).N) (Proc.devRef .tc main_v1_3) = encP (m ((c : Thread nD τ).loc main_arg0)) (m ((c : Thread nD τ).loc main_arg1)) (m ((c : Thread nD τ).loc main_arg2)) :=
  (Pipeline.withArrays_arr spec0 launch0.win.arr_inj c _ _ 6).trans (final6 m c)

/-- A sum over the rows of a [512, 512] array from zero, at column `k`. -/
theorem reduce0_apply (A : FVec Ideal S512x512 .f32) (k : Fin 512) :
    Host.reduceAdd (F := Ideal) A (constant (F := Ideal) S_ .f32 0x00000000#32) reducesTo_S512x512_S512_d0 h_S_ (ix1 k) = ∑ R : Fin 512, A (ix2 R k) := by
  simp only [Host.reduceAdd, Ideal.hostReduceAdd_def]
  rw [Ideal.hostReduceAdd_single reducesTo_S512x512_S512_d0 (by decide)]
  rw [constant_apply, Ideal.ofBits_zero_f32, zero_add]
  refine Finset.sum_congr rfl fun R _ => ?_
  exact congrArg A (funext fun a => Fin.ext (by match a with | ⟨0, _⟩ => rfl | ⟨1, _⟩ => rfl))

/-- The indices of a vector are its one coordinate. -/
def idxEquiv1 {n : Nat} : Fin n ≃ (⟨1, ![n]⟩ : Shape).Idx where
  toFun := ix1
  invFun j := j 0
  left_inv _ := rfl
  right_inv j := (eq_ix1 j).symm

/-- A sum over a vector of 512 from zero. -/
theorem reduce1_apply (x : FVec Ideal S512 .f32) (j : S_.Idx) :
    Host.reduceAdd (F := Ideal) x (constant (F := Ideal) S_ .f32 0x00000000#32) reducesTo_S512_S_d0 h_S_ j = ∑ k : Fin 512, x (ix1 k) := by
  simp only [Host.reduceAdd, Ideal.hostReduceAdd_def]
  rw [Ideal.hostReduceAdd_total reducesTo_S512_S_d0 (fun b => b.elim0)]
  rw [constant_apply, Ideal.ofBits_zero_f32, zero_add]
  exact (Equiv.sum_comp idxEquiv1 x).symm

/-- A scalar constant broadcast to 512 entries. -/
theorem bcast_const_apply (w : BitVec 32) (i : S512.Idx) :
    broadcastInDim S512 ![] bcast_S_S512 (constant (F := Ideal) S_ .f32 w) i = Ideal.ofBits .f32 w := rfl

/-- The divergence's tail: rows summed, an eighth, summed over the codes, over 512. -/
theorem klTail_eq (A : FVec Ideal S512x512 .f32) :
    Host.divf (F := Ideal) (Host.reduceAdd (F := Ideal) (Host.divf (F := Ideal) (Host.reduceAdd (F := Ideal) A (constant (F := Ideal) S_ .f32 0x00000000#32) reducesTo_S512x512_S512_d0 h_S_)
        (broadcastInDim S512 ![] bcast_S_S512 (constant (F := Ideal) S_ .f32 0x41000000#32))) (constant (F := Ideal) S_ .f32 0x00000000#32) reducesTo_S512_S_d0 h_S_)
      (constant (F := Ideal) S_ .f32 0x44000000#32)
    = fun _ => Ideal.div (∑ k : Fin 512, Ideal.div (∑ R : Fin 512, A (ix2 R k)) (Ideal.ofBits .f32 0x41000000#32))
        (Ideal.ofBits .f32 0x44000000#32) := by
  funext j
  simp only [Host.divf, Ideal.hostDivf_def, reduce1_apply, reduce0_apply, constant_apply]
  rfl

/-- The perplexity's tail. -/
theorem perpTail_eq (A : FVec Ideal S512x512 .f32) :
    Host.exp (F := Ideal) (Host.negf (F := Ideal) (Host.reduceAdd (F := Ideal)
      (mulf (Host.divf (F := Ideal) (Host.reduceAdd (F := Ideal) A (constant (F := Ideal) S_ .f32 0x00000000#32) reducesTo_S512x512_S512_d0 h_S_)
              (broadcastInDim S512 ![] bcast_S_S512 (constant (F := Ideal) S_ .f32 0x49800000#32)))
        (Host.log (F := Ideal) (addf (Host.divf (F := Ideal) (Host.reduceAdd (F := Ideal) A (constant (F := Ideal) S_ .f32 0x00000000#32) reducesTo_S512x512_S512_d0 h_S_)
              (broadcastInDim S512 ![] bcast_S_S512 (constant (F := Ideal) S_ .f32 0x49800000#32)))
            (broadcastInDim S512 ![] bcast_S_S512 (constant (F := Ideal) S_ .f32 0x2EDBE6FF#32)))))
      (constant (F := Ideal) S_ .f32 0x00000000#32) reducesTo_S512_S_d0 h_S_))
    = fun _ => perp (fun k => Ideal.div (∑ R : Fin 512, A (ix2 R k)) (Ideal.ofBits .f32 0x49800000#32)) := by
  funext j
  simp only [Host.exp, Host.negf, Host.log, Host.divf, Ideal.hostUnary_exp_def, Ideal.hostUnary_log_def, Ideal.hostNegf_def,
    Ideal.negf_def, Ideal.hostDivf_def, reduce1_apply, mulf_apply, addf_apply, reduce0_apply]
  rfl

/-- The quantised array as returned: the flat array read as [64, 2048, 128]. -/
theorem tail_v2 (c : Dev nD) :
    Pipeline.afterTail₀ cfgs (dats m) 0 (V0 m) [hostOps1] c main_v2 = quantA logitsK (m ((c : Thread nD τ).loc main_arg0)) (m ((c : Thread nD τ).loc main_arg1)) (m ((c : Thread nD τ).loc main_arg2)) := by
  have e : Pipeline.afterTail₀ cfgs (dats m) 0 (V0 m) [hostOps1] c main_v2
      = shapeCast S64x2048x128 (Pipeline.withArrays (cfgs 0).spec c (V0 m c) (fun w => (dats m 0 c).arrAt w (cfgs 0).N) (Proc.devRef .tc main_v1_0)) shapeCasts_S131072x128_S64x2048x128 := by
    unfold Pipeline.afterTail₀
    show StableHlo.after hostOps1 _ (Proc.devRef .tc main_v2) = _
    after_results
    rfl
  rw [e, exit3 m c]
  refine funext fun (i : S64x2048x128.Idx) => ?_
  obtain ⟨b, t, d, rfl⟩ : ∃ (b : Fin 64) (t : Fin 2048) (d : Fin 128), i = ix3 b t d := ⟨i 0, i 1, i 2, eq_ix3 i⟩
  refine (shapeCast_apply _ shapeCasts_S131072x128_S64x2048x128 (ix3 b t d) (ix2 (rowOf b t) d) ?_).trans ?_
  · rewrite [Shape.rowMajor_val_two, Shape.rowMajor_val_three]
    rfl
  · rfl

/-- The divergence as returned. -/
theorem tail_v7 (c : Dev nD) :
    Pipeline.afterTail₀ cfgs (dats m) 0 (V0 m) [hostOps1] c main_v7 = (fun _ => klTiled logitsK (m ((c : Thread nD τ).loc main_arg0)) (m ((c : Thread nD τ).loc main_arg2))) := by
  unfold Pipeline.afterTail₀
  show StableHlo.after hostOps1 _ (Proc.devRef .tc main_v7) = _
  after_results
  rw [exit5 m c]
  exact klTail_eq (klP (m ((c : Thread nD τ).loc main_arg0)) (m ((c : Thread nD τ).loc main_arg2)))

/-- The perplexity as returned. -/
theorem tail_v17 (c : Dev nD) :
    Pipeline.afterTail₀ cfgs (dats m) 0 (V0 m) [hostOps1] c main_v17 = (fun _ => perp (avgTiled logitsK (m ((c : Thread nD τ).loc main_arg0)) (m ((c : Thread nD τ).loc main_arg1)) (m ((c : Thread nD τ).loc main_arg2)))) := by
  unfold Pipeline.afterTail₀
  show StableHlo.after hostOps1 _ (Proc.devRef .tc main_v17) = _
  after_results
  rw [exit6 m c]
  exact perpTail_eq (encP (m ((c : Thread nD τ).loc main_arg0)) (m ((c : Thread nD τ).loc main_arg1)) (m ((c : Thread nD τ).loc main_arg2)))

end Cert.KernelIdeal.Arr

end
-- ==== Proof.KRun.lean ====
/-
  The idealized kernel's run with every result named: after the run the code array is `encA logitsK` of the argument
  arrays, the quantised array `quantA logitsK`, and the two scalars are the divergence and the perplexity computed from the
  per-tile partial sums (`klTiled`, `perp ∘ avgTiled`); the arguments end unchanged. Tile `t` of the 64 covers rows
  2048·t … 2048·t + 2047 of the code and quantised arrays and rows 8·t … 8·t + 7 of the two partial-sum arrays.
-/
import proofs.«111803_j8821862826425_2_alg».proof.Proof.Gen.KernelIdeal.Frame
import proofs.«111803_j8821862826425_2_alg».proof.Proof.Spec
import proofs.«111803_j8821862826425_2_alg».proof.Proof.KBody
import proofs.«111803_j8821862826425_2_alg».proof.Proof.KArr
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KRun

open Idealize.ShloMosaic Idealize.ShloMosaic.TcCoe Idealize.ShloMosaic.ValueIdx Idealize.SL.Sem
open Cert.KernelIdeal Cert.KernelIdeal.Gen Cert.VQ

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = (fun _ => klTiled logitsK (m ((c.tc : Thread nD τ).loc main_arg0)) (m ((c.tc : Thread nD τ).loc main_arg2)))
      ∧ r.2.mem ((c.tc : Thread nD τ).loc main_v2)
          = quantA logitsK (m ((c.tc : Thread nD τ).loc main_arg0)) (m ((c.tc : Thread nD τ).loc main_arg1)) (m ((c.tc : Thread nD τ).loc main_arg2))
      ∧ r.2.mem ((c.tc : Thread nD τ).loc main_v17)
          = (fun _ => perp (avgTiled logitsK (m ((c.tc : Thread nD τ).loc main_arg0)) (m ((c.tc : Thread nD τ).loc main_arg1)) (m ((c.tc : Thread nD τ).loc main_arg2))))
      ∧ r.2.mem ((c.tc : Thread nD τ).loc main_v1_1)
          = encA logitsK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v7 (Pipeline.mem_restRefs_of main_v7 (by decide) (by decide))).trans (Arr.tail_v7 m c),
     ((h c).2 main_v2 (Pipeline.mem_restRefs_of main_v2 (by decide) (by decide))).trans (Arr.tail_v2 m c),
     ((h c).2 main_v17 (Pipeline.mem_restRefs_of main_v17 (by decide) (by decide))).trans (Arr.tail_v17 m c),
     ((h c).1 4).trans (Arr.final4 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.KRun

end
-- ==== Proof.RefVal.lean ====
/-
  The idealized reference's four results as the functions of Proof/Spec.lean, with the logits in their long spelling
  `logitsR`: the code array, the quantised array (the straight-through sum taken on the [64, 2048, 128] arrays), the
  divergence summed over the 131072 rows and averaged over the codes, and the perplexity of the mean code usage.
-/
import proofs.«111803_j8821862826425_2_alg».proof.Proof.RefRead
import proofs.«111803_j8821862826425_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.RefVal

open Idealize.ShloMosaic Idealize.ShloMosaic.TcCoe Idealize.ShloMosaic.ValueIdx
open Cert.ReferenceIdeal Cert.ReferenceIdeal.Gen Cert.ReferenceIdeal.Read Cert.VQ

/-! ## Two facts about the words and the reduce over a row -/

/-- The word of minus infinity is the bottom element. -/
theorem negInf_eq_bot : Ideal.ofBits .f32 0xFF800000#32 = (⊥ : EReal) := by
  simp [Ideal.ofBits, Ideal.ieee]

/-- Dropping the second axis of a [131072, 512] array leaves its 131072 rows. -/
theorem reduces_rows : S131072x512.Reduces [1] S131072 := by decide

/-- Row `n` with column `k` put back is (n, k). -/
theorem lift_row (n : Fin 131072) (k : Fin (S131072x512.size 1)) :
    reduces_rows.lift (ix1 n) k = ix2 n (⟨k.val, k.isLt⟩ : Fin 512) := by
  funext c; apply Fin.ext
  fin_cases c <;> rfl

/-- A row's maximum from minus infinity: the fold of `max` over the row's 512 entries. -/
theorem rowMax_read (y : FVec Ideal S131072x512 .f32) (n : Fin 131072) :
    Host.reduce (FloatOps.maximumf (F := Ideal) (φ := .f32)) y (constant (F := Ideal) S_ .f32 0xFF800000#32)
        reducesTo_S131072x512_S131072_d1 h_S_ (ix1 n)
      = rowMax (fun k => y (ix2 n k)) := by
  refine (Host.reduce_eq_fold_single FloatOps.maximumf y _ reducesTo_S131072x512_S131072_d1 reduces_rows h_S_ (ix1 n)).trans ?_
  have hf : (y ∘ reduces_rows.lift (ix1 n)) = fun k : Fin 512 => y (ix2 n k) := funext fun k => congrArg y (lift_row n k)
  unfold rowMax
  rw [← negInf_eq_bot]
  exact congrArg (fun f => Finset.fold max (Ideal.ofBits .f32 0xFF800000#32) f (Finset.univ : Finset (Fin 512))) hf

/-- A sum over the indices of a vector of 512 entries is the sum over its 512 coordinates. -/
theorem sum_idx512 (f : S512.Idx → EReal) : ∑ j : S512.Idx, f j = ∑ k : Fin 512, f (ix1 k) := by
  refine Fintype.sum_equiv ⟨fun j => j 0, fun k => ix1 k, fun j => (eq_ix1 j).symm, fun _ => rfl⟩ _ _ fun j => ?_
  exact congrArg f (eq_ix1 j)

/-! ## The logits -/

/-- Row `n`, entry `d` of the inputs read as 131072 rows. -/
theorem v0_at (x0 : (⟨S64x2048x128, .f32⟩ : BufTy).Contents (Elt Ideal)) (n : Fin 131072) (d : Fin 128) :
    val_main_v0 (F := Ideal) x0 (ix2 n d) = rowX x0 n d := by
  rw [val_main_v0_apply]
  unfold rowX
  refine congrArg x0 (funext fun a => Fin.ext ?_)
  have hn := n.isLt
  have hd := d.isLt
  match a with
  | ⟨0, _⟩ => show (n.val * 128 + d.val) / 262144 = n.val / 2048; omega
  | ⟨1, _⟩ => show (n.val * 128 + d.val) / 128 % 2048 = n.val % 2048; omega
  | ⟨2, _⟩ => show (n.val * 128 + d.val) % 128 = d.val; omega

/-- The squared norm of row `n`. -/
theorem v2_at (x0 : (⟨S64x2048x128, .f32⟩ : BufTy).Contents (Elt Ideal)) (n : Fin 131072) :
    val_main_v2 (F := Ideal) x0 (ix1 n) = ∑ d : Fin 128, rowX x0 n d * rowX x0 n d := by
  rw [val_main_v2_apply, val_main_cst_apply, Ideal.ofBits_def, Ideal.ofBits_zero_f32, zero_add]
  refine Finset.sum_congr rfl fun d _ => ?_
  rw [show idx_main_v2 (ix1 n) d = ix2 n d from funext fun a => Fin.ext (by match a with | ⟨0, _⟩ => rfl | ⟨1, _⟩ => rfl)]
  rw [val_main_v1_apply, v0_at, Ideal.mulf_def]

/-- The squared norm of row `n`, repeated along the codes. -/
theorem v7_at (x0 : (⟨S64x2048x128, .f32⟩ : BufTy).Contents (Elt Ideal)) (n : Fin 131072) (k : Fin 512) :
    val_main_v7 (F := Ideal) x0 (ix2 n k) = ∑ d : Fin 128, rowX x0 n d * rowX x0 n d := by
  rw [val_main_v7_apply, val_main_v3_apply]
  exact (congrArg (val_main_v2 (F := Ideal) x0) (funext fun a => Fin.ext (by match a with | ⟨0, _⟩ => rfl))).trans (v2_at x0 n)

/-- The squared norm of code `k`. -/
theorem v5_at (x2 : (⟨S512x128, .f32⟩ : BufTy).Contents (Elt Ideal)) (k : Fin 512) :
    val_main_v5 (F := Ideal) x2 (ix1 k) = ∑ d : Fin 128, matE x2 k d * matE x2 k d := by
  rw [val_main_v5_apply, val_main_cst_0_apply, Ideal.ofBits_def, Ideal.ofBits_zero_f32, zero_add]
  refine Finset.sum_congr rfl fun d _ => ?_
  rw [show idx_main_v5 (ix1 k) d = ix2 k d from funext fun a => Fin.ext (by match a with | ⟨0, _⟩ => rfl | ⟨1, _⟩ => rfl)]
  rw [val_main_v4_apply, Ideal.mulf_def]
  rfl

/-- The squared norm of code `k`, repeated along the rows. -/
theorem v8_at (x2 : (⟨S512x128, .f32⟩ : BufTy).Contents (Elt Ideal)) (n : Fin 131072) (k : Fin 512) :
    val_main_v8 (F := Ideal) x2 (ix2 n k) = ∑ d : Fin 128, matE x2 k d * matE x2 k d := by
  rw [val_main_v8_apply, val_main_v6_apply]
  exact (congrArg (val_main_v5 (F := Ideal) x2) (funext fun a => Fin.ext (by match a with | ⟨0, _⟩ => rfl))).trans (v5_at x2 k)

/-- The inner product of twice row `n` with code `k`. -/
theorem v13_at (x0 : (⟨S64x2048x128, .f32⟩ : BufTy).Contents (Elt Ideal)) (x2 : (⟨S512x128, .f32⟩ : BufTy).Contents (Elt Ideal)) (n : Fin 131072) (k : Fin 512) :
    val_main_v13 (F := Ideal) x0 x2 (ix2 n k)
      = ∑ d : Fin 128, (Ideal.ofBits .f32 0x40000000#32 * rowX x0 n d) * matE x2 k d := by
  rw [val_main_v13_apply]
  refine Finset.sum_congr rfl fun d _ => ?_
  rw [show lidx_main_v13 (ix2 n k) d = ix2 n d from funext fun a => Fin.ext (by match a with | ⟨0, _⟩ => rfl | ⟨1, _⟩ => rfl),
    show ridx_main_v13 (ix2 n k) d = ix2 d k from funext fun a => Fin.ext (by match a with | ⟨0, _⟩ => rfl | ⟨1, _⟩ => rfl)]
  rw [val_main_v11_apply, val_main_v10_apply, val_main_cst_1_apply, v0_at, val_main_v12_apply, Ideal.mulf_def, Ideal.ofBits_def]
  exact congrArg (_ * ·) (congrArg x2 (funext fun a => Fin.ext (by match a with | ⟨0, _⟩ => rfl | ⟨1, _⟩ => rfl)))

/-- The logits of row `n`, in their long spelling. -/
theorem v15_at (x0 : (⟨S64x2048x128, .f32⟩ : BufTy).Contents (Elt Ideal)) (x2 : (⟨S512x128, .f32⟩ : BufTy).Contents (Elt Ideal)) (n : Fin 131072) (k : Fin 512) :
    val_main_v15 (F := Ideal) x0 x2 (ix2 n k) = logitsR (rowX x0 n) (matE x2) k := by
  rw [val_main_v15_apply, val_main_v14_apply, val_main_v9_apply, v7_at, v8_at, v13_at, Ideal.hostNegf_def, Ideal.negf_def,
    Ideal.subf_def, Ideal.addf_def]
  rfl

/-! ## The stable log-softmax of a row of logits -/

/-- The maximum of the logits of row `n`. -/
theorem call0_v0_at (x0 : (⟨S64x2048x128, .f32⟩ : BufTy).Contents (Elt Ideal)) (x2 : (⟨S512x128, .f32⟩ : BufTy).Contents (Elt Ideal)) (n : Fin 131072) :
    val_main_call0_v0 (F := Ideal) x0 x2 (ix1 n) = rowMax (logitsR (rowX x0 n) (matE x2)) := by
  unfold val_main_call0_v0 val_main_call0_cst
  refine (rowMax_read (val_main_v15 (F := Ideal) x0 x2) n).trans ?_
  exact congrArg rowMax (funext fun k => v15_at x0 x2 n k)

/-- The same maximum, after the maximum with minus infinity. -/
theorem call0_v2_at (x0 : (⟨S64x2048x128, .f32⟩ : BufTy).Contents (Elt Ideal)) (x2 : (⟨S512x128, .f32⟩ : BufTy).Contents (Elt Ideal)) (n : Fin 131072) :
    val_main_call0_v2 (F := Ideal) x0 x2 (ix1 n) = rowMax (logitsR (rowX x0 n) (matE x2)) := by
  rw [val_main_call0_v2_apply, val_main_call0_v1_apply, val_main_call0_cst_0_apply, call0_v0_at, Ideal.maximumf_def,
    Ideal.ofBits_def, negInf_eq_bot]
  exact max_eq_right bot_le

/-- The logits of row `n` minus their maximum. -/
theorem call0_v5_at (x0 : (⟨S64x2048x128, .f32⟩ : BufTy).Contents (Elt Ideal)) (x2 : (⟨S512x128, .f32⟩ : BufTy).Contents (Elt Ideal)) (n : Fin 131072) (k : Fin 512) :
    val_main_call0_v5 (F := Ideal) x0 x2 (ix2 n k) = shifted (logitsR (rowX x0 n) (matE x2)) k := by
  have hi : idx_main_call0_v3 (idx_main_call0_v4 (ix2 n k)) = ix1 n := funext fun a => Fin.ext (by match a with | ⟨0, _⟩ => rfl)
  rw [val_main_call0_v5_apply, v15_at, val_main_call0_v4_apply, val_main_call0_v3_apply, hi, call0_v2_at, Ideal.subf_def]
  rfl

/-- The sum of the exponentials of the shifted logits of row `n`. -/
theorem call0_v7_at (x0 : (⟨S64x2048x128, .f32⟩ : BufTy).Contents (Elt Ideal)) (x2 : (⟨S512x128, .f32⟩ : BufTy).Contents (Elt Ideal)) (n : Fin 131072) :
    val_main_call0_v7 (F := Ideal) x0 x2 (ix1 n) = sumExp (logitsR (rowX x0 n) (matE x2)) := by
  rw [val_main_call0_v7_apply, val_main_call0_cst_1_apply, Ideal.ofBits_def, Ideal.ofBits_zero_f32, zero_add]
  unfold sumExp
  refine Finset.sum_congr rfl fun j _ => ?_
  rw [show idx_main_call0_v7 (ix1 n) j = ix2 n j from funext fun a => Fin.ext (by match a with | ⟨0, _⟩ => rfl | ⟨1, _⟩ => rfl)]
  rw [val_main_call0_v6_apply, call0_v5_at, Ideal.hostUnary_exp_def]

/-- The stable log-softmax of the logits of row `n`. -/
theorem v16_at (x0 : (⟨S64x2048x128, .f32⟩ : BufTy).Contents (Elt Ideal)) (x2 : (⟨S512x128, .f32⟩ : BufTy).Contents (Elt Ideal)) (n : Fin 131072) (k : Fin 512) :
    val_main_v16 (F := Ideal) x0 x2 (ix2 n k) = logp (logitsR (rowX x0 n) (matE x2)) k := by
  have hi : idx_main_call0_v8 (idx_main_call0_v10 (ix2 n k)) = ix1 n := funext fun a => Fin.ext (by match a with | ⟨0, _⟩ => rfl)
  rw [val_main_v16_apply, call0_v5_at, val_main_call0_v10_apply, val_main_call0_v9_apply, val_main_call0_v8_apply, hi,
    call0_v7_at, Ideal.hostUnary_log_def, Ideal.subf_def]
  rfl

/-! ## The Gumbel noise, the perturbed logits and their stable softmax -/

/-- The Gumbel noise at (n, k) from the clipped uniform sample. -/
theorem v22_at (x1 : (⟨S131072x512, .f32⟩ : BufTy).Contents (Elt Ideal)) (n : Fin 131072) (k : Fin 512) :
    val_main_v22 (F := Ideal) x1 (ix2 n k) = gumbel (rowU x1 n k) := by
  rw [val_main_v22_apply, val_main_v21_apply, val_main_v20_apply, val_main_v19_apply, val_main_v18_apply,
    val_main_call1_v3_apply, val_main_call1_v2_apply, val_main_cst_3_apply, val_main_call1_v1_apply, val_main_call1_v0_apply,
    val_main_cst_2_apply]
  simp only [Ideal.hostNegf_def, Ideal.negf_def, Ideal.hostUnary_log_def, Ideal.minimumf_def, Ideal.maximumf_def, Ideal.ofBits_def]
  rfl

/-- The perturbed logits of row `n` over the temperature. -/
theorem v25_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) (k : Fin 512) :
    val_main_v25 (F := Ideal) x0 x1 x2 (ix2 n k) = scaled (logitsR (rowX x0 n) (matE x2)) (rowU x1 n) k := by
  rw [val_main_v25_apply, val_main_v23_apply, v15_at, v22_at, val_main_v24_apply, val_main_cst_4_apply, Ideal.hostDivf_def,
    Ideal.addf_def, Ideal.ofBits_def]
  rfl

/-- The maximum of the perturbed logits of row `n`. -/
theorem v26_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) :
    val_main_v26 (F := Ideal) x0 x1 x2 (ix1 n) = rowMax (scaled (logitsR (rowX x0 n) (matE x2)) (rowU x1 n)) := by
  unfold val_main_v26 val_main_cst_5
  refine (rowMax_read (val_main_v25 (F := Ideal) x0 x1 x2) n).trans ?_
  exact congrArg rowMax (funext fun k => v25_at x0 x1 x2 n k)

/-- The same maximum, after the maximum with minus infinity. -/
theorem v28_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) :
    val_main_v28 (F := Ideal) x0 x1 x2 (ix1 n) = rowMax (scaled (logitsR (rowX x0 n) (matE x2)) (rowU x1 n)) := by
  rw [val_main_v28_apply, val_main_v27_apply, val_main_cst_6_apply, v26_at, Ideal.maximumf_def, Ideal.ofBits_def, negInf_eq_bot]
  exact max_eq_right bot_le

/-- The perturbed logits of row `n` minus their maximum. -/
theorem v31_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) (k : Fin 512) :
    val_main_v31 (F := Ideal) x0 x1 x2 (ix2 n k) = shifted (scaled (logitsR (rowX x0 n) (matE x2)) (rowU x1 n)) k := by
  have hi : idx_main_v29 (idx_main_v30 (ix2 n k)) = ix1 n := funext fun a => Fin.ext (by match a with | ⟨0, _⟩ => rfl)
  rw [val_main_v31_apply, v25_at, val_main_v30_apply, val_main_v29_apply, hi, v28_at, Ideal.subf_def]
  rfl

/-- The sum of the exponentials of the shifted perturbed logits of row `n`. -/
theorem v33_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) :
    val_main_v33 (F := Ideal) x0 x1 x2 (ix1 n) = sumExp (scaled (logitsR (rowX x0 n) (matE x2)) (rowU x1 n)) := by
  rw [val_main_v33_apply, val_main_cst_7_apply, Ideal.ofBits_def, Ideal.ofBits_zero_f32, zero_add]
  unfold sumExp
  refine Finset.sum_congr rfl fun j _ => ?_
  rw [show idx_main_v33 (ix1 n) j = ix2 n j from funext fun a => Fin.ext (by match a with | ⟨0, _⟩ => rfl | ⟨1, _⟩ => rfl)]
  rw [val_main_v32_apply, v31_at, Ideal.hostUnary_exp_def]

/-- The relaxed one-hot code of row `n`. -/
theorem v36_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) (k : Fin 512) :
    val_main_v36 (F := Ideal) x0 x1 x2 (ix2 n k) = encC logitsR x0 x1 x2 n k := by
  have hi : idx_main_v34 (idx_main_v35 (ix2 n k)) = ix1 n := funext fun a => Fin.ext (by match a with | ⟨0, _⟩ => rfl)
  rw [val_main_v36_apply, val_main_v32_apply, v31_at, val_main_v35_apply, val_main_v34_apply, hi, v33_at,
    Ideal.hostUnary_exp_def, Ideal.hostDivf_def]
  rfl

/-- The code array. -/
theorem enc_eq (x0 : (⟨S64x2048x128, .f32⟩ : BufTy).Contents (Elt Ideal)) (x1 : (⟨S131072x512, .f32⟩ : BufTy).Contents (Elt Ideal))
    (x2 : (⟨S512x128, .f32⟩ : BufTy).Contents (Elt Ideal)) :
    val_main_v36 (F := Ideal) x0 x1 x2 = encA logitsR x0 x1 x2 := by
  funext i
  obtain ⟨n, k, rfl⟩ : ∃ (n : Fin 131072) (k : Fin 512), i = ix2 n k := ⟨i 0, i 1, eq_ix2 i⟩
  exact v36_at x0 x1 x2 n k

/-! ## The quantised rows -/

/-- The code of row `n` against column `d` of the codebook. -/
theorem v37_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (n : Fin 131072) (d : Fin 128) :
    val_main_v37 (F := Ideal) x0 x1 x2 (ix2 n d) = ∑ k : Fin 512, encC logitsR x0 x1 x2 n k * matE x2 k d := by
  rw [val_main_v37_apply]
  refine Finset.sum_congr rfl fun k _ => ?_
  rw [show lidx_main_v37 (ix2 n d) k = ix2 n k from funext fun a => Fin.ext (by match a with | ⟨0, _⟩ => rfl | ⟨1, _⟩ => rfl),
    show ridx_main_v37 (ix2 n d) k = ix2 k d from funext fun a => Fin.ext (by match a with | ⟨0, _⟩ => rfl | ⟨1, _⟩ => rfl), v36_at]
  rfl

/-- The straight-through sum at (b, t, d), on row `rowOf b t`. -/
theorem v40_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (b : Fin 64) (t : Fin 2048) (d : Fin 128) :
    val_main_v40 (F := Ideal) x0 x1 x2 (ix3 b t d) = quantC logitsR x0 x1 x2 (rowOf b t) d := by
  have hi : idx_main_v38 (ix3 b t d) = ix2 (rowOf b t) d := funext fun a => Fin.ext (by
    have hb := b.isLt
    have ht := t.isLt
    have hd := d.isLt
    match a with
    | ⟨0, _⟩ => show ((b.val * 2048 + t.val) * 128 + d.val) / 128 = b.val * 2048 + t.val; omega
    | ⟨1, _⟩ => show ((b.val * 2048 + t.val) * 128 + d.val) % 128 = d.val; omega)
  rw [val_main_v40_apply, val_main_v39_apply, val_main_v38_apply, hi, v37_at, Ideal.addf_def, Ideal.subf_def,
    ← rowX_rowOf x0 b t d]
  rfl

/-- The quantised array. -/
theorem quant_eq (x0 : (⟨S64x2048x128, .f32⟩ : BufTy).Contents (Elt Ideal)) (x1 : (⟨S131072x512, .f32⟩ : BufTy).Contents (Elt Ideal))
    (x2 : (⟨S512x128, .f32⟩ : BufTy).Contents (Elt Ideal)) :
    val_main_v40 (F := Ideal) x0 x1 x2 = quantA logitsR x0 x1 x2 := by
  funext i
  obtain ⟨b, t, d, rfl⟩ : ∃ (b : Fin 64) (t : Fin 2048) (d : Fin 128), i = ix3 b t d := ⟨i 0, i 1, i 2, eq_ix3 i⟩
  exact v40_at x0 x1 x2 b t d

/-! ## The divergence -/

/-- Row `n`'s term `k` of the divergence. -/
theorem v46_at (x0 : (⟨S64x2048x128, .f32⟩ : BufTy).Contents (Elt Ideal)) (x2 : (⟨S512x128, .f32⟩ : BufTy).Contents (Elt Ideal)) (n : Fin 131072) (k : Fin 512) :
    val_main_v46 (F := Ideal) x0 x2 (ix2 n k) = klC logitsR x0 x2 n k := by
  rw [val_main_v46_apply, val_main_v45_apply, val_main_v43_apply, val_main_v42_apply, val_main_v17_apply, v16_at,
    val_main_v44_apply, val_main_cst_9_apply, val_main_call2_v1_apply, val_main_call2_v0_apply, val_main_cst_10_apply,
    val_main_v41_apply, val_main_cst_8_apply]
  simp only [Ideal.hostUnary_exp_def, Ideal.mulf_def, Ideal.addf_def, Ideal.ofBits_def, Ideal.ofBits_zero_f32]
  rfl

/-- Column `k`'s sum of the divergence terms over the rows. -/
theorem v47_at (x0 : (⟨S64x2048x128, .f32⟩ : BufTy).Contents (Elt Ideal)) (x2 : (⟨S512x128, .f32⟩ : BufTy).Contents (Elt Ideal)) (k : Fin 512) :
    val_main_v47 (F := Ideal) x0 x2 (ix1 k) = ∑ n : Fin 131072, klC logitsR x0 x2 n k := by
  rw [val_main_v47_apply, val_main_cst_11_apply, Ideal.ofBits_def, Ideal.ofBits_zero_f32, zero_add]
  refine Finset.sum_congr rfl fun n _ => ?_
  rw [show idx_main_v47 (ix1 k) n = ix2 n k from funext fun a => Fin.ext (by match a with | ⟨0, _⟩ => rfl | ⟨1, _⟩ => rfl), v46_at]

/-- The divergence. -/
theorem kl_eq (x0 : (⟨S64x2048x128, .f32⟩ : BufTy).Contents (Elt Ideal)) (x2 : (⟨S512x128, .f32⟩ : BufTy).Contents (Elt Ideal)) :
    val_main_v49 (F := Ideal) x0 x2 = fun _ => klTot logitsR x0 x2 := by
  funext i
  have hs : ∑ k : Fin 512, val_main_v47 (F := Ideal) x0 x2 (ix1 k) = ∑ k : Fin 512, ∑ n : Fin 131072, klC logitsR x0 x2 n k :=
    Finset.sum_congr rfl fun k _ => v47_at x0 x2 k
  rw [val_main_v49_apply, val_main_v48_apply, val_main_cst_12_apply, val_main_cst_13_apply, sum_idx512, hs]
  simp only [Ideal.hostDivf_def, Ideal.ofBits_def, Ideal.ofBits_zero_f32, zero_add]
  rfl

/-! ## The perplexity of the mean code usage -/

/-- Column `k`'s sum of the codes over the rows. -/
theorem v50_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (k : Fin 512) :
    val_main_v50 (F := Ideal) x0 x1 x2 (ix1 k) = ∑ n : Fin 131072, encC logitsR x0 x1 x2 n k := by
  rw [val_main_v50_apply, val_main_cst_14_apply, Ideal.ofBits_def, Ideal.ofBits_zero_f32, zero_add]
  refine Finset.sum_congr rfl fun n _ => ?_
  rw [show idx_main_v50 (ix1 k) n = ix2 n k from funext fun a => Fin.ext (by match a with | ⟨0, _⟩ => rfl | ⟨1, _⟩ => rfl), v36_at]

/-- The mean usage of code `k`. -/
theorem v52_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (k : Fin 512) :
    val_main_v52 (F := Ideal) x0 x1 x2 (ix1 k) = avgTot logitsR x0 x1 x2 k := by
  rw [val_main_v52_apply, v50_at, val_main_v51_apply, val_main_cst_15_apply, Ideal.hostDivf_def, Ideal.ofBits_def]
  rfl

/-- Code `k`'s term of the entropy of the mean usage. -/
theorem v56_at (x0 : (⟨S64x2048x128, .f32⟩ : BufTy).Contents (Elt Ideal)) (x1 : (⟨S131072x512, .f32⟩ : BufTy).Contents (Elt Ideal)) (x2 : (⟨S512x128, .f32⟩ : BufTy).Contents (Elt Ideal)) (k : Fin 512) :
    val_main_v56 (F := Ideal) x0 x1 x2 (ix1 k)
      = avgTot logitsR x0 x1 x2 k * Ideal.log (avgTot logitsR x0 x1 x2 k + Ideal.ofBits .f32 0x2EDBE6FF#32) := by
  rw [val_main_v56_apply, val_main_v55_apply, val_main_v54_apply, v52_at, val_main_v53_apply, val_main_cst_16_apply]
  simp only [Ideal.mulf_def, Ideal.addf_def, Ideal.hostUnary_log_def, Ideal.ofBits_def]

/-- The perplexity. -/
theorem perp_eq (x0 : (⟨S64x2048x128, .f32⟩ : BufTy).Contents (Elt Ideal)) (x1 : (⟨S131072x512, .f32⟩ : BufTy).Contents (Elt Ideal))
    (x2 : (⟨S512x128, .f32⟩ : BufTy).Contents (Elt Ideal)) :
    val_main_v59 (F := Ideal) x0 x1 x2 = fun _ => perp (avgTot logitsR x0 x1 x2) := by
  funext i
  rw [val_main_v59_apply, val_main_v58_apply, val_main_v57_apply, val_main_cst_17_apply, sum_idx512]
  simp only [Ideal.hostUnary_exp_def, Ideal.hostNegf_def, Ideal.negf_def, Ideal.ofBits_def, Ideal.ofBits_zero_f32, zero_add]
  unfold perp
  exact congrArg Ideal.exp (congrArg Neg.neg (Finset.sum_congr rfl fun k _ => v56_at x0 x1 x2 k))

end Cert.ReferenceIdeal.RefVal

end
-- ==== Proof.lean ====
/-
  The certificate of a vector-quantisation layer: a Pallas kernel that, tile by tile over 131072 token rows, forms each
  row's logits against a 512 × 128 codebook, a stable log-softmax, a Gumbel-perturbed stable softmax at temperature 1/2
  (the relaxed one-hot code), the code's product with the codebook inside a straight-through sum, and per-tile column
  sums of the divergence terms and of the codes — against the plain jnp computation of the same four results (the
  divergence from the uniform distribution, the quantised rows, the perplexity of the mean code usage, the codes).

  At the ideal values the two agree on finite inputs for two reasons. The kernel writes the logits as
  `2·⟨x, E k⟩ - ‖E k‖²`, leaving out the row's own `‖x‖²` of the reference's negated squared distance; both softmaxes
  read a row only through the row minus its maximum, which does not see a constant added to the row
  (Proof/ShiftLaw.lean, Proof/Bridge.lean). And the kernel's two scalars are computed from 512 partial-sum rows, each
  tile's column sum repeated on eight rows: an eighth of their sum is the sum over all rows, and over 8 · 131072 it is the
  mean (Proof/TileSums.lean). The kernel's run with its results named is Proof/KRun.lean (over Proof/KBody.lean, the body
  at an index, and Proof/KArr.lean, blocks to arrays); the reference's results as the same functions are
  Proof/RefVal.lean, over its run stage by stage (Proof/RefSteps1–3.lean, Proof/RefRunVal.lean); that the precondition makes the token array and the codebook finite is Proof/Finite.lean.
  The three frames are the generated ones; the idealization rewrote nothing, so `preserves` has nothing to say.
-/
import proofs.«111803_j8821862826425_2_alg».proof.Defs
import proofs.«111803_j8821862826425_2_alg».proof.Proof.Gen.Kernel
import proofs.«111803_j8821862826425_2_alg».proof.Proof.Gen.Kernel.Skeleton
import proofs.«111803_j8821862826425_2_alg».proof.Proof.Gen.Kernel.Launch
import proofs.«111803_j8821862826425_2_alg».proof.Proof.Gen.Kernel.Points
import proofs.«111803_j8821862826425_2_alg».proof.Proof.Gen.Kernel.Frame
import proofs.«111803_j8821862826425_2_alg».proof.Proof.Gen.KernelIdeal
import proofs.«111803_j8821862826425_2_alg».proof.Proof.Gen.KernelIdeal.Skeleton
import proofs.«111803_j8821862826425_2_alg».proof.Proof.Gen.KernelIdeal.Launch
import proofs.«111803_j8821862826425_2_alg».proof.Proof.Gen.KernelIdeal.Points
import proofs.«111803_j8821862826425_2_alg».proof.Proof.Gen.KernelIdeal.Frame
import proofs.«111803_j8821862826425_2_alg».proof.Proof.Gen.ReferenceIdeal
import proofs.«111803_j8821862826425_2_alg».proof.Proof.Gen.Pre_finite_inputs
import proofs.«111803_j8821862826425_2_alg».proof.Proof.RefRun
import proofs.«111803_j8821862826425_2_alg».proof.Proof.RefRead
import proofs.«111803_j8821862826425_2_alg».proof.Proof.RefRunVal
import proofs.«111803_j8821862826425_2_alg».proof.Proof.Spec
import proofs.«111803_j8821862826425_2_alg».proof.Proof.ShiftLaw
import proofs.«111803_j8821862826425_2_alg».proof.Proof.TileSums
import proofs.«111803_j8821862826425_2_alg».proof.Proof.Bridge
import proofs.«111803_j8821862826425_2_alg».proof.Proof.Finite
import proofs.«111803_j8821862826425_2_alg».proof.Proof.KRun
import proofs.«111803_j8821862826425_2_alg».proof.Proof.RefVal
import Idealize.ShloMosaic.Adequacy
import Idealize.ShloMosaic.Init

noncomputable section

namespace Cert.Proof

open Idealize.ShloMosaic Idealize.ShloMosaic.TcCoe Idealize.SL.Sem Cert.VQ

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.RunVal.run (F := Ideal) m ρ)

/-- The idealization rewrote no operation. -/
theorem preserves : Cert.preserves_Kernel_KernelIdeal := trivial

/-- The two idealized programs, run from memories that agree on the arguments, end with equal results: the kernel's are
    the functions of Proof/Spec.lean at the short logits and from the tiled sums (Proof/KRun.lean), the reference's the same
    functions at the long logits and from the plain sums (Proof/RefVal.lean), and on the finite arguments the precondition
    grants (Proof/Finite.lean) these are equal (Proof/Bridge.lean, Proof/TileSums.lean). -/
theorem algebraic : Cert.algebraic_KernelIdeal_ReferenceIdeal := by
  intro m ρ m' ρ' hpre hagree
  refine ⟨_, _, _, _, Cert.KernelIdeal.KRun.run m ρ, ?_⟩
  refine (θ_run Cert.ReferenceIdeal.defs _ _).mono (fun r h c => ?_) (Cert.ReferenceIdeal.RunVal.run (F := Ideal) m' ρ')
  obtain ⟨h49, h40, h59, h36, ha0, ha1, ha2⟩ := h c
  obtain ⟨e0, e1, e2⟩ := hagree c
  obtain ⟨hx, hE⟩ := Cert.Finite.of_pre _ _ _ (hpre c)
  refine ⟨?_, ?_, ?_, ?_, ha0, ha1, ha2⟩
  · rw [h49, Cert.ReferenceIdeal.RefVal.kl_eq, e0, e2]
    funext _
    rw [klTiled_eq]
    exact klTot_logits _ _ hx hE
  · rw [h40, Cert.ReferenceIdeal.RefVal.quant_eq, e0, e1, e2]
    exact quantA_logits _ _ _ hx hE
  · rw [h59, Cert.ReferenceIdeal.RefVal.perp_eq, e0, e1, e2]
    funext _
    rw [avgTiled_eq, avgTot_logits _ _ _ hx hE]
  · rw [h36, Cert.ReferenceIdeal.RefVal.enc_eq, e0, e1, e2]
    exact encA_logits _ _ _ hx hE

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
